-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v2_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_v2_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_v19) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x12x2048x64 : Shape := ⟨4, ![2, 12, 2048, 64]⟩
abbrev S2x1x2048x2048 : Shape := ⟨4, ![2, 1, 2048, 2048]⟩
abbrev S_ : Shape := ⟨0, ![]⟩

class Facts : Prop where
  bcast_S_S2x12x2048x64 : S_.BroadcastsInDim S2x12x2048x64 (![] : Fin 0 → Fin S2x12x2048x64.rank)
  reducesTo_S2x12x2048x64_S_d0_1_2_3 : S2x12x2048x64.ReducesTo [0, 1, 2, 3] S_
  h_S_ : 0 < S_.numel
  bcast_S_S2x1x2048x2048 : S_.BroadcastsInDim S2x1x2048x2048 (![] : Fin 0 → Fin S2x1x2048x2048.rank)
  reducesTo_S2x1x2048x2048_S_d0_1_2_3 : S2x1x2048x2048.ReducesTo [0, 1, 2, 3] S_

variable [Facts]

def fn_part1 {F : FTy → Type} [FloatOps F] (main_v13 : IVec S_ 1) (main_v16 : IVec S2x1x2048x2048 1) : IVec S_ 1 :=
  let main_c_5 : IVec S_ 1 := constantI S_ 1 1#1
  let main_v17 : IVec S_ 1 := (fun x v => Host.reduce IntOp.andi x v reducesTo_S2x1x2048x2048_S_d0_1_2_3 h_S_) main_v16 main_c_5
  let main_v18 : IVec S_ 1 := andi main_v13 main_v17
  main_v18

def fn {F : FTy → Type} [FloatOps F] (main_arg0 : FVec F S2x12x2048x64 .f32) (main_arg1 : FVec F S2x12x2048x64 .f32) (main_arg2 : FVec F S2x12x2048x64 .f32) (main_arg3 : FVec F S2x1x2048x2048 .f32) (main_arg4 : IVec S2x1x2048x2048 32) : IVec S_ 1 :=
  let main_v0 : FVec F S2x12x2048x64 .f32 := Host.absf main_arg0
  let main_cst : FVec F S_ .f32 := constant S_ .f32 0x7F800000#32
  let main_v1 : FVec F S2x12x2048x64 .f32 := broadcastInDim S2x12x2048x64 ![] bcast_S_S2x12x2048x64 main_cst
  let main_v2 : IVec S2x12x2048x64 1 := cmpf .olt main_v0 main_v1
  let main_c : IVec S_ 1 := constantI S_ 1 1#1
  let main_v3 : IVec S_ 1 := (fun x v => Host.reduce IntOp.andi x v reducesTo_S2x12x2048x64_S_d0_1_2_3 h_S_) main_v2 main_c
  let main_v4 : FVec F S2x12x2048x64 .f32 := Host.absf main_arg1
  let main_cst_0 : FVec F S_ .f32 := constant S_ .f32 0x7F800000#32
  let main_v5 : FVec F S2x12x2048x64 .f32 := broadcastInDim S2x12x2048x64 ![] bcast_S_S2x12x2048x64 main_cst_0
  let main_v6 : IVec S2x12x2048x64 1 := cmpf .olt main_v4 main_v5
  let main_c_1 : IVec S_ 1 := constantI S_ 1 1#1
  let main_v7 : IVec S_ 1 := (fun x v => Host.reduce IntOp.andi x v reducesTo_S2x12x2048x64_S_d0_1_2_3 h_S_) main_v6 main_c_1
  let main_v8 : IVec S_ 1 := andi main_v3 main_v7
  let main_v9 : FVec F S2x12x2048x64 .f32 := Host.absf main_arg2
  let main_cst_2 : FVec F S_ .f32 := constant S_ .f32 0x7F800000#32
  let main_v10 : FVec F S2x12x2048x64 .f32 := broadcastInDim S2x12x2048x64 ![] bcast_S_S2x12x2048x64 main_cst_2
  let main_v11 : IVec S2x12x2048x64 1 := cmpf .olt main_v9 main_v10
  let main_c_3 : IVec S_ 1 := constantI S_ 1 1#1
  let main_v12 : IVec S_ 1 := (fun x v => Host.reduce IntOp.andi x v reducesTo_S2x12x2048x64_S_d0_1_2_3 h_S_) main_v11 main_c_3
  let main_v13 : IVec S_ 1 := andi main_v8 main_v12
  let main_v14 : FVec F S2x1x2048x2048 .f32 := Host.absf main_arg3
  let main_cst_4 : FVec F S_ .f32 := constant S_ .f32 0x7F800000#32
  let main_v15 : FVec F S2x1x2048x2048 .f32 := broadcastInDim S2x1x2048x2048 ![] bcast_S_S2x1x2048x2048 main_cst_4
  let main_v16 : IVec S2x1x2048x2048 1 := cmpf .olt main_v14 main_v15
  fn_part1 (F := F) main_v13 main_v16
-- ==== Kernel.lean ====
abbrev S2x12x2048x64 : Shape := ⟨4, ![2, 12, 2048, 64]⟩
abbrev S2x1x2048x2048 : Shape := ⟨4, ![2, 1, 2048, 2048]⟩
abbrev S2x12x2048x2048 : Shape := ⟨4, ![2, 12, 2048, 2048]⟩
abbrev S1x1x512x64 : Shape := ⟨4, ![1, 1, 512, 64]⟩
abbrev S1x1x2048x64 : Shape := ⟨4, ![1, 1, 2048, 64]⟩
abbrev S1x1x512x2048 : Shape := ⟨4, ![1, 1, 512, 2048]⟩
abbrev S512x64 : Shape := ⟨2, ![512, 64]⟩
abbrev S2048x64 : Shape := ⟨2, ![2048, 64]⟩
abbrev S512x2048 : Shape := ⟨2, ![512, 2048]⟩
abbrev S512 : Shape := ⟨1, ![512]⟩
abbrev S512x1 : Shape := ⟨2, ![512, 1]⟩

abbrev nBuf : Space → Nat
  | .hbm => 9
  | .vmem => 14
  | .smem => 0
  | _ => 0

abbrev bufTy : (tb : Table) → Fin (tcTables nBuf tb) → BufTy
  | .hbm, ⟨0, _⟩ => ⟨S2x12x2048x64, .f32⟩
  | .hbm, ⟨1, _⟩ => ⟨S2x12x2048x64, .f32⟩
  | .hbm, ⟨2, _⟩ => ⟨S2x12x2048x64, .f32⟩
  | .hbm, ⟨3, _⟩ => ⟨S2x1x2048x2048, .f32⟩
  | .hbm, ⟨4, _⟩ => ⟨S2x1x2048x2048, .i32⟩
  | .hbm, ⟨5, _⟩ => ⟨S2x12x2048x64, .bf16⟩
  | .hbm, ⟨6, _⟩ => ⟨S2x12x2048x64, .bf16⟩
  | .hbm, ⟨7, _⟩ => ⟨S2x12x2048x64, .f32⟩
  | .hbm, ⟨8, _⟩ => ⟨S2x12x2048x2048, .f32⟩
  | .local _ .vmem, ⟨0, _⟩ => ⟨S1x1x512x64, .f32⟩
  | .local _ .vmem, ⟨1, _⟩ => ⟨S1x1x512x64, .f32⟩
  | .local _ .vmem, ⟨2, _⟩ => ⟨S1x1x2048x64, .bf16⟩
  | .local _ .vmem, ⟨3, _⟩ => ⟨S1x1x2048x64, .bf16⟩
  | .local _ .vmem, ⟨4, _⟩ => ⟨S1x1x2048x64, .bf16⟩
  | .local _ .vmem, ⟨5, _⟩ => ⟨S1x1x2048x64, .bf16⟩
  | .local _ .vmem, ⟨6, _⟩ => ⟨S1x1x512x2048, .f32⟩
  | .local _ .vmem, ⟨7, _⟩ => ⟨S1x1x512x2048, .f32⟩
  | .local _ .vmem, ⟨8, _⟩ => ⟨S1x1x512x2048, .i32⟩
  | .local _ .vmem, ⟨9, _⟩ => ⟨S1x1x512x2048, .i32⟩
  | .local _ .vmem, ⟨10, _⟩ => ⟨S1x1x512x64, .f32⟩
  | .local _ .vmem, ⟨11, _⟩ => ⟨S1x1x512x64, .f32⟩
  | .local _ .vmem, ⟨12, _⟩ => ⟨S1x1x512x2048, .f32⟩
  | .local _ .vmem, ⟨13, _⟩ => ⟨S1x1x512x2048, .f32⟩
  | _, _ => ⟨S2x12x2048x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨3, ![2, 4, 12], ![false, false, false]⟩

def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, arg1.toNat, c0_i32.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg2.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg2.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, arg1.toNat, c0_i32_0.toNat]

def cc0_transform_4 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, arg1.toNat, c0_i32_0.toNat]

def cc0_transform_5 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, arg1.toNat, c0_i32.toNat]

def cc0_transform_6 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, arg1.toNat, c0_i32.toNat]

abbrev stage0_0 : Fin 2 → Memref sig .tc .vmem S1x1x512x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x1x2048x64 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x1x2048x64 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S1x1x512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x1x512x2048 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1x1x512x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S1x1x512x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

class Facts₀ : Prop where
  bitsLt_bf16_f32 : FTy.bits .bf16 < FTy.bits .f32
  inb_S1x1x512x64_S1x1x512x64_0_0_0_0 : ∀ a, (![0, 0, 0, 0] : Fin 4 → Nat) a + S1x1x512x64.size a ≤ S1x1x512x64.size a
  h_S1x1x512x64 : 0 < S1x1x512x64.numel
  shapeCasts_S1x1x512x64_S512x64 : S1x1x512x64.ShapeCasts S512x64
  inb_S1x1x2048x64_S1x1x2048x64_0_0_0_0 : ∀ a, (![0, 0, 0, 0] : Fin 4 → Nat) a + S1x1x2048x64.size a ≤ S1x1x2048x64.size a
  h_S1x1x2048x64 : 0 < S1x1x2048x64.numel
  shapeCasts_S1x1x2048x64_S2048x64 : S1x1x2048x64.ShapeCasts S2048x64
  inb_S1x1x512x2048_S1x1x512x2048_0_0_0_0 : ∀ a, (![0, 0, 0, 0] : Fin 4 → Nat) a + S1x1x512x2048.size a ≤ S1x1x512x2048.size a
  h_S1x1x512x2048 : 0 < S1x1x512x2048.numel
  shapeCasts_S1x1x512x2048_S512x2048 : S1x1x512x2048.ShapeCasts S512x2048
  reduces_S512x2048_S512 : S512x2048.Reduces [1] S512
  shapeCasts_S512_S512x1 : S512.ShapeCasts S512x1
  broadcasts_S512x1_S512x2048 : S512x1.Broadcasts S512x2048
  shapeCasts_S512x2048_S1x1x512x2048 : S512x2048.ShapeCasts S1x1x512x2048
  shapeCasts_S512x64_S1x1x512x64 : S512x64.ShapeCasts S1x1x512x64
  dot_S512x64_S2048x64_S512x2048_1_1_0_0_n_n_wf : DotDims.WF S512x64 S2048x64 S512x2048 [1] [1] [0] [0] [] []
  dot_S512x2048_S2048x64_S512x64_1_0_0_1_n_n_wf : DotDims.WF S512x2048 S2048x64 S512x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1x512x64.size a ≤ S2x12x2048x64.size a
  hwx0_0 : ∀ i : grid0.Coords, EltTy.bits .f32 = 32 ∨ (Rect.block (s := S2x12x2048x64) S1x1x512x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x2048x64.size a ≤ S2x12x2048x64.size a
  hwx0_1 : ∀ i : grid0.Coords, EltTy.bits .bf16 = 32 ∨ (Rect.block (s := S2x12x2048x64) S1x1x2048x64.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x2048x64.size a ≤ S2x12x2048x64.size a
  hwx0_2 : ∀ i : grid0.Coords, EltTy.bits .bf16 = 32 ∨ (Rect.block (s := S2x12x2048x64) S1x1x2048x64.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x512x2048.size a ≤ S2x1x2048x2048.size a
  hwx0_3 : ∀ i : grid0.Coords, EltTy.bits .f32 = 32 ∨ (Rect.block (s := S2x1x2048x2048) S1x1x512x2048.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x512x2048.size a ≤ S2x1x2048x2048.size a
  hwx0_4 : ∀ i : grid0.Coords, EltTy.bits .i32 = 32 ∨ (Rect.block (s := S2x1x2048x2048) S1x1x512x2048.size (cc0_transform_4 i) (hinb0_4 i)).WholeWords (EltTy.packing .i32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1x512x64.size a ≤ S2x12x2048x64.size a
  hwx0_5 : ∀ i : grid0.Coords, EltTy.bits .f32 = 32 ∨ (Rect.block (s := S2x12x2048x64) S1x1x512x64.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x1x512x2048.size a ≤ S2x12x2048x2048.size a
  hwx0_6 : ∀ i : grid0.Coords, EltTy.bits .f32 = 32 ∨ (Rect.block (s := S2x12x2048x2048) S1x1x512x2048.size (cc0_transform_6 i) (hinb0_6 i)).WholeWords (EltTy.packing .f32)

variable [Facts₀]

def dot_S512x64_S2048x64_S512x2048_1_1_0_0_n_n : DotDims S512x64 S2048x64 S512x2048 where
  lhsContracting := [1]
  rhsContracting := [1]
  lhsNonContracting := [0]
  rhsNonContracting := [0]
  lhsBatch := []
  rhsBatch := []
  wf := dot_S512x64_S2048x64_S512x2048_1_1_0_0_n_n_wf
def dot_S512x2048_S2048x64_S512x64_1_0_0_1_n_n : DotDims S512x2048 S2048x64 S512x64 where
  lhsContracting := [1]
  rhsContracting := [0]
  lhsNonContracting := [0]
  rhsNonContracting := [1]
  lhsBatch := []
  rhsBatch := []
  wf := dot_S512x2048_S2048x64_S512x64_1_0_0_1_n_n_wf

abbrev win0_0 : Pipeline.Window sig grid0 :=
  Pipeline.Window.ofSpec (Memref.whole main_arg0) S1x1x512x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x1x2048x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x1x2048x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1x1x512x2048.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S1x1x512x2048.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v2_0) S1x1x512x64.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v2_1) S1x1x512x2048.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S2x12x2048x64 : Shape := ⟨4, ![2, 12, 2048, 64]⟩
abbrev S2x1x2048x2048 : Shape := ⟨4, ![2, 1, 2048, 2048]⟩
abbrev S2x12x2048x2048 : Shape := ⟨4, ![2, 12, 2048, 2048]⟩
abbrev S_ : Shape := ⟨0, ![]⟩
abbrev S2x12x2048 : Shape := ⟨3, ![2, 12, 2048]⟩
abbrev S2x12x2048x1 : Shape := ⟨4, ![2, 12, 2048, 1]⟩

abbrev nBuf : Space → Nat
  | .hbm => 35
  | .vmem => 0
  | .smem => 0
  | _ => 0

abbrev bufTy : (tb : Table) → Fin (tcTables nBuf tb) → BufTy
  | .hbm, ⟨0, _⟩ => ⟨S2x12x2048x64, .f32⟩
  | .hbm, ⟨1, _⟩ => ⟨S2x12x2048x64, .f32⟩
  | .hbm, ⟨2, _⟩ => ⟨S2x12x2048x64, .f32⟩
  | .hbm, ⟨3, _⟩ => ⟨S2x1x2048x2048, .f32⟩
  | .hbm, ⟨4, _⟩ => ⟨S2x1x2048x2048, .i32⟩
  | .hbm, ⟨5, _⟩ => ⟨S2x12x2048x2048, .f32⟩
  | .hbm, ⟨6, _⟩ => ⟨S_, .f32⟩
  | .hbm, ⟨7, _⟩ => ⟨S2x12x2048x2048, .f32⟩
  | .hbm, ⟨8, _⟩ => ⟨S2x12x2048x2048, .f32⟩
  | .hbm, ⟨9, _⟩ => ⟨S2x1x2048x2048, .f32⟩
  | .hbm, ⟨10, _⟩ => ⟨S2x12x2048x2048, .f32⟩
  | .hbm, ⟨11, _⟩ => ⟨S2x12x2048x2048, .f32⟩
  | .hbm, ⟨12, _⟩ => ⟨S_, .i32⟩
  | .hbm, ⟨13, _⟩ => ⟨S2x1x2048x2048, .i32⟩
  | .hbm, ⟨14, _⟩ => ⟨S2x1x2048x2048, .i1⟩
  | .hbm, ⟨15, _⟩ => ⟨S_, .f32⟩
  | .hbm, ⟨16, _⟩ => ⟨S_, .f32⟩
  | .hbm, ⟨17, _⟩ => ⟨S2x12x2048x2048, .i1⟩
  | .hbm, ⟨18, _⟩ => ⟨S2x12x2048x2048, .f32⟩
  | .hbm, ⟨19, _⟩ => ⟨S2x12x2048x2048, .f32⟩
  | .hbm, ⟨20, _⟩ => ⟨S_, .f32⟩
  | .hbm, ⟨21, _⟩ => ⟨S2x12x2048, .f32⟩
  | .hbm, ⟨22, _⟩ => ⟨S_, .f32⟩
  | .hbm, ⟨23, _⟩ => ⟨S2x12x2048, .f32⟩
  | .hbm, ⟨24, _⟩ => ⟨S2x12x2048, .f32⟩
  | .hbm, ⟨25, _⟩ => ⟨S2x12x2048x1, .f32⟩
  | .hbm, ⟨26, _⟩ => ⟨S2x12x2048x2048, .f32⟩
  | .hbm, ⟨27, _⟩ => ⟨S2x12x2048x2048, .f32⟩
  | .hbm, ⟨28, _⟩ => ⟨S2x12x2048x2048, .f32⟩
  | .hbm, ⟨29, _⟩ => ⟨S_, .f32⟩
  | .hbm, ⟨30, _⟩ => ⟨S2x12x2048, .f32⟩
  | .hbm, ⟨31, _⟩ => ⟨S2x12x2048x1, .f32⟩
  | .hbm, ⟨32, _⟩ => ⟨S2x12x2048x2048, .f32⟩
  | .hbm, ⟨33, _⟩ => ⟨S2x12x2048x2048, .f32⟩
  | .hbm, ⟨34, _⟩ => ⟨S2x12x2048x64, .f32⟩
  | _, _ => ⟨S2x12x2048x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_c : Ref sig .tc := ⟨.hbm, 12, rfl⟩
abbrev main_v6 : Ref sig .tc := ⟨.hbm, 13, rfl⟩
abbrev main_v7 : Ref sig .tc := ⟨.hbm, 14, rfl⟩
abbrev main_cst_0 : Ref sig .tc := ⟨.hbm, 15, rfl⟩
abbrev main_call0_v0 : Ref sig .tc := ⟨.hbm, 16, rfl⟩
abbrev main_call0_v1 : Ref sig .tc := ⟨.hbm, 17, rfl⟩
abbrev main_call0_v2 : Ref sig .tc := ⟨.hbm, 18, rfl⟩
abbrev main_v8 : Ref sig .tc := ⟨.hbm, 19, rfl⟩
abbrev main_cst_1 : Ref sig .tc := ⟨.hbm, 20, rfl⟩
abbrev main_v9 : Ref sig .tc := ⟨.hbm, 21, rfl⟩
abbrev main_cst_2 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_cst_3 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩

abbrev nD : Nat := 1
abbrev τ : Topo := Topo.v7x

variable {F : FTy → Type} [FloatOps F]

class Facts₀ : Prop where
  bcast_S_S2x12x2048x2048 : S_.BroadcastsInDim S2x12x2048x2048 (![] : Fin 0 → Fin S2x12x2048x2048.rank)
  bcast_S2x1x2048x2048_S2x12x2048x2048_0_1_2_3 : S2x1x2048x2048.BroadcastsInDim S2x12x2048x2048 (![0, 1, 2, 3] : Fin 4 → Fin S2x12x2048x2048.rank)
  bcast_S_S2x1x2048x2048 : S_.BroadcastsInDim S2x1x2048x2048 (![] : Fin 0 → Fin S2x1x2048x2048.rank)
  reducesTo_S2x12x2048x2048_S2x12x2048_d3 : S2x12x2048x2048.ReducesTo [3] S2x12x2048
  h_S_ : 0 < S_.numel
  bcast_S_S2x12x2048 : S_.BroadcastsInDim S2x12x2048 (![] : Fin 0 → Fin S2x12x2048.rank)
  bcast_S2x12x2048_S2x12x2048x1_0_1_2 : S2x12x2048.BroadcastsInDim S2x12x2048x1 (![0, 1, 2] : Fin 3 → Fin S2x12x2048x1.rank)
  bcast_S2x12x2048x1_S2x12x2048x2048_0_1_2_3 : S2x12x2048x1.BroadcastsInDim S2x12x2048x2048 (![0, 1, 2, 3] : Fin 4 → Fin S2x12x2048x2048.rank)
  dot_S2x12x2048x64_S2x12x2048x64_S2x12x2048x2048_3_3_2_2_01_01_wf : DotDims.WF S2x12x2048x64 S2x12x2048x64 S2x12x2048x2048 [3] [3] [2] [2] [0, 1] [0, 1]
  dot_S2x12x2048x2048_S2x12x2048x64_S2x12x2048x64_3_2_2_3_01_01_wf : DotDims.WF S2x12x2048x2048 S2x12x2048x64 S2x12x2048x64 [3] [2] [2] [3] [0, 1] [0, 1]

variable [Facts₀]

def dot_S2x12x2048x64_S2x12x2048x64_S2x12x2048x2048_3_3_2_2_01_01 : DotDims S2x12x2048x64 S2x12x2048x64 S2x12x2048x2048 where
  lhsContracting := [3]
  rhsContracting := [3]
  lhsNonContracting := [2]
  rhsNonContracting := [2]
  lhsBatch := [0, 1]
  rhsBatch := [0, 1]
  wf := dot_S2x12x2048x64_S2x12x2048x64_S2x12x2048x2048_3_3_2_2_01_01_wf
def dot_S2x12x2048x2048_S2x12x2048x64_S2x12x2048x64_3_2_2_3_01_01 : DotDims S2x12x2048x2048 S2x12x2048x64 S2x12x2048x64 where
  lhsContracting := [3]
  rhsContracting := [2]
  lhsNonContracting := [2]
  rhsNonContracting := [3]
  lhsBatch := [0, 1]
  rhsBatch := [0, 1]
  wf := dot_S2x12x2048x2048_S2x12x2048x64_S2x12x2048x64_3_2_2_3_01_01_wf

class Facts : Prop extends Facts₀ where

variable [Facts]
-- ==== Proof.Finite.lean ====
/-
  What the precondition gives: every entry of the query, key, value and frequency arrays is a real number.

  The precondition is the conjunction, array by array, of "every entry's absolute value is below +∞".  An extended real whose
  absolute value is below +∞ is neither +∞ nor −∞, so it is a real.
-/
import proofs.«101672_j36876589203488_2_alg».proof.Pre_finite_inputs
import Idealize.ShloMosaic.PureOps.Ideal
import Idealize.ShloMosaic.PureOps.Ideal.Laws
import Idealize.ShloMosaic.Lib.ReduceAll
import Idealize.ShloMosaic.Lib.ValueIdx

noncomputable section

namespace Cert.Attn.Finite

open Idealize.ShloMosaic Cert.Pre_finite_inputs

variable [Facts]
open Facts

instance : Subsingleton S_.Idx := ⟨fun a b => funext fun d => d.elim0⟩

/-- An extended real whose absolute value compares below the word of +∞ is a real. -/
theorem real_of_abs_lt (x : EReal)
    (h : FloatOps.cmpf (F := Ideal) (φ := .f32) .olt (FloatOps.hostAbsf (F := Ideal) (φ := .f32) x) (FloatOps.ofBits (F := Ideal) .f32 0x7F800000#32) = 1#1) :
    ∃ r : ℝ, x = r := by
  have hinf : Ideal.ofBits .f32 0x7F800000#32 = ⊤ := by simp [Ideal.ofBits, Ideal.ieee]
  rw [Ideal.cmpf_def, Ideal.hostAbsf_def, Ideal.absf_def, Ideal.ofBits_def, hinf] at h
  induction x using EReal.rec with
  | bot => exact absurd h (by simp [Ideal.cmp])
  | coe r => exact ⟨r, rfl⟩
  | top => exact absurd h (by simp [Ideal.cmp])

/-- The precondition's conjunction, read back: every entry of each of the four float arrays is a real. -/
theorem all_real (a0 a1 a2 : FVec Ideal S2x12x2048x64 .f32) (a3 : FVec Ideal S2x1x2048x2048 .f32) (a4 : IVec S2x1x2048x2048 32)
    (h : fn (F := Ideal) a0 a1 a2 a3 a4 = fun _ => 1#1) :
    (∀ i, ∃ r : ℝ, a0 i = r) ∧ (∀ i, ∃ r : ℝ, a1 i = r) ∧ (∀ i, ∃ r : ℝ, a2 i = r) ∧ (∀ i, ∃ r : ℝ, a3 i = r) := by
  have h0 := congrFun h ValueIdx.ix0
  dsimp only [fn, fn_part1] at h0
  obtain ⟨h012, h3⟩ := IntOp.andi_eq_one.1 h0
  obtain ⟨h01, h2⟩ := IntOp.andi_eq_one.1 h012
  obtain ⟨h0', h1⟩ := IntOp.andi_eq_one.1 h01
  exact ⟨fun i => real_of_abs_lt _ (Host.reduce_andi_all _ _ _ _ _ h0' i),
    fun i => real_of_abs_lt _ (Host.reduce_andi_all _ _ _ _ _ h1 i),
    fun i => real_of_abs_lt _ (Host.reduce_andi_all _ _ _ _ _ h2 i),
    fun i => real_of_abs_lt _ (Host.reduce_andi_all _ _ _ _ _ h3 i)⟩

end Cert.Attn.Finite

end
-- ==== Proof.Softmax.lean ====
/-
  Masked, biased softmax attention over the extended reals, one query row at a time.

  For a query row the scores against the 2048 keys are  s k = (q · key k) / 8 + log (freq k),  replaced by −10⁹ where the
  mask word is zero.  The attention weights of the row are  exp (s j − M) / Σ_k exp (s k − M)  with  M  the maximum of the
  row (folded from −∞), and the output row is the weights' combination of the value rows.

  The one law used between two spellings of the scores: for REAL query and key entries the factor 1/8 may be applied to
  each query entry before the products are summed, or once to the sum — distributivity over a finite sum, which in the
  extended reals needs the terms finite (it fails when a product is infinite and another term cancels it).  A further
  factor 1 changes nothing.
-/
import Idealize.ShloMosaic.PureOps.Ideal
import Idealize.ShloMosaic.PureOps.Ideal.Laws
import Idealize.ShloMosaic.Lib.ValueIdx

noncomputable section

open scoped BigOperators

namespace Cert.Attn

open Idealize.ShloMosaic Idealize.ShloMosaic.ValueIdx

/-! ## The float words the two programs spell -/

/-- The f32 word of 0.125 is the real 1/8. -/
theorem ofBits_eighth : Ideal.ofBits .f32 0x3E000000#32 = ((1 / 8 : ℝ) : EReal) := by
  simp [Ideal.ofBits, Ideal.ieee, -EReal.coe_mul]; norm_num

/-- The f32 word of 1.0 is 1. -/
theorem ofBits_one : Ideal.ofBits .f32 0x3F800000#32 = 1 := by
  simp [Ideal.ofBits, Ideal.ieee, -EReal.coe_mul]; norm_num

/-! ## A row -/

/-- The maximum of a row, folded from the word of −∞. -/
def rowMax {N : ℕ} (s : Fin N → EReal) : EReal :=
  (Finset.univ : Finset (Fin N)).fold max (Ideal.ofBits .f32 0xFF800000#32) s

/-- The softmax of a row of scores, at position `j`: the exponential of the score less the row's maximum, over the sum of
    those exponentials along the row. -/
def softRow {N : ℕ} (s : Fin N → EReal) (j : Fin N) : EReal :=
  Ideal.div (Ideal.exp (s j - rowMax s)) (∑ k : Fin N, Ideal.exp (s k - rowMax s))

/-- A score under its mask word: the word of −10⁹ where the mask word is zero, else the score. -/
def masked (mk : BitVec 32) (x : EReal) : EReal :=
  Scalar.select (IntOp.cmpi .eq mk 0#32) (Ideal.ofBits .f32 0xCE6E6B28#32) x

/-! ## The factor 1/8 inside or outside the sum -/

/-- The coercion of a finite real sum is the sum of the coercions. -/
theorem coe_sum {n : ℕ} (f : Fin n → ℝ) : (∑ d, ((f d : ℝ) : EReal)) = ((∑ d, f d : ℝ) : EReal) := by
  induction (Finset.univ : Finset (Fin n)) using Finset.induction_on with
  | empty => simp
  | insert a s ha ih => rw [Finset.sum_insert ha, Finset.sum_insert ha, ih, EReal.coe_add]

/-- For real entries, scaling each query entry by 1/8 before the products are summed (and the sum by 1 after) is scaling
    the sum of the plain products by 1/8. -/
theorem scale_inside {n : ℕ} (q k : Fin n → EReal) (hq : ∀ d, ∃ r : ℝ, q d = r) (hk : ∀ d, ∃ r : ℝ, k d = r) :
    (∑ d, (q d * Ideal.ofBits .f32 0x3E000000#32) * k d) * Ideal.ofBits .f32 0x3F800000#32
      = (∑ d, q d * k d) * Ideal.ofBits .f32 0x3E000000#32 := by
  choose qr hqr using hq
  choose kr hkr using hk
  rw [ofBits_one, mul_one, ofBits_eighth]
  simp only [hqr, hkr, ← EReal.coe_mul]
  rw [coe_sum, coe_sum, ← EReal.coe_mul, Finset.sum_mul]
  exact congrArg _ (Finset.sum_congr rfl fun d _ => by ring)

end Cert.Attn

end
-- ==== Proof.Spec.lean ====
/-
  The two results as functions of the five argument arrays, entry by entry.

  With  b  the batch entry,  h  the head,  i  the query position and  k  a key position:
    score b h i k  =  (Σ_d query[b,h,i,d] · key[b,h,k,d]) / 8 + log freq[b,0,i,k],   −10⁹ where mask[b,0,i,k] = 0;
    weights[b,h,i,j]  =  softmax over k of  score b h i ·  at j;
    output[b,h,i,d]   =  Σ_j weights[b,h,i,j] · value[b,h,j,d].
  The scores are written twice — the factor 1/8 on each query entry inside the sum (and a factor 1 on the sum), or once
  on the sum — and the two agree when the query and key entries are real.
-/
import proofs.«101672_j36876589203488_2_alg».proof.Proof.Softmax

noncomputable section

open scoped BigOperators

namespace Cert.Attn

open Idealize.ShloMosaic Idealize.ShloMosaic.ValueIdx

/-- The query, key and value arrays' index set, and the frequency and mask arrays'. -/
abbrev IxQ : Type := (⟨4, ![2, 12, 2048, 64]⟩ : Shape).Idx
abbrev IxF : Type := (⟨4, ![2, 1, 2048, 2048]⟩ : Shape).Idx
abbrev IxW : Type := (⟨4, ![2, 12, 2048, 2048]⟩ : Shape).Idx

variable (Q K V : IxQ → EReal) (Fr : IxF → EReal) (Mk : IxF → BitVec 32)

/-- The scores of query (b, h, i), the factor 1/8 applied to the query entries inside the sum. -/
def scoreIn (b : Fin 2) (h : Fin 12) (i : Fin 2048) (k : Fin 2048) : EReal :=
  masked (Mk (ix4 b 0 i k))
    ((∑ d : Fin 64, (Q (ix4 b h i d) * Ideal.ofBits .f32 0x3E000000#32) * K (ix4 b h k d)) * Ideal.ofBits .f32 0x3F800000#32
      + Ideal.log (Fr (ix4 b 0 i k)))

/-- The same scores, the factor 1/8 applied once to the sum. -/
def scoreOut (b : Fin 2) (h : Fin 12) (i : Fin 2048) (k : Fin 2048) : EReal :=
  masked (Mk (ix4 b 0 i k))
    ((∑ d : Fin 64, Q (ix4 b h i d) * K (ix4 b h k d)) * Ideal.ofBits .f32 0x3E000000#32
      + Ideal.log (Fr (ix4 b 0 i k)))

/-- For real query and key entries the two spellings of the scores agree. -/
theorem scoreIn_eq_scoreOut (hQ : ∀ i, ∃ r : ℝ, Q i = r) (hK : ∀ i, ∃ r : ℝ, K i = r) :
    scoreIn Q K Fr Mk = scoreOut Q K Fr Mk := by
  funext b h i k
  unfold scoreIn scoreOut
  rw [scale_inside (fun d => Q (ix4 b h i d)) (fun d => K (ix4 b h k d)) (fun d => hQ _) (fun d => hK _)]

/-- The attention weights. -/
def weights : IxW → EReal := fun i => softRow (scoreIn Q K Fr Mk (i 0) (i 1) (i 2)) (i 3)

/-- The attention output. -/
def output : IxQ → EReal := fun i =>
  ∑ j : Fin 2048, weights Q K Fr Mk (ix4 (i 0) (i 1) (i 2) j) * V (ix4 (i 0) (i 1) j (i 3))

theorem weights_apply (b : Fin 2) (h : Fin 12) (i j : Fin 2048) :
    weights Q K Fr Mk (ix4 b h i j) = softRow (scoreIn Q K Fr Mk b h i) j := rfl

theorem output_apply (b : Fin 2) (h : Fin 12) (i : Fin 2048) (d : Fin 64) :
    output Q K V Fr Mk (ix4 b h i d) = ∑ j : Fin 2048, weights Q K Fr Mk (ix4 b h i j) * V (ix4 b h j d) := rfl

end Cert.Attn

end
-- ==== Proof.LibMaxMinFold.lean ====
/-
  General facts about maxima and minima taken as folds, at the extended reals.

  1. Grouping. In a linear order the fold of `max` from a start value `b` over a finite family is the least upper bound
     of `b` and the family's terms; so the maximum of four such folds over four sub-families, each from the same `b`,
     is the fold over the whole family as soon as every index lies in one of the four (`b` counted four times is
     harmless: `max` is idempotent). The same for `min` and greatest lower bounds. Nothing is asked of the terms: the
     statements hold at +∞ and −∞.
  2. Reductions over ONE axis read at a result index, with the extended reals as values: a vector `multi_reduction` by
     `minimumf` and the host's one-operand `reduce` with a `maximumf` or `minimumf` body are the fold of `min` / `max`,
     from the initial value, over that axis's coordinates `k`, of the source at the result index with `k` inserted on
     the dropped axis. (For a vector `multi_reduction` by `maximumf` this is the library's
     `Ideal.multiReduction_maximumf_single`.)
-/
import Idealize.ShloMosaic.PureOps.Ideal.Laws
import Mathlib.Data.Finset.Fold

noncomputable section

namespace Cert.MaxMinFold

open Idealize.ShloMosaic

/-! ## Folding over four sub-families that cover the index set -/

section Runs

variable {α : Type} [LinearOrder α] {ι κ : Type} [Fintype ι] [Fintype κ]

/-- The maximum of four partial maxima, each folded from `b` over one sub-family `f ∘ g c`, is the maximum folded from
    `b` over the whole family `f`, when every index of `f` is `g c k` for some `c` and `k`. Both sides are the least upper
    bound of `b` and the terms of `f`. -/
theorem fold_max_runs (b : α) (f : ι → α) (g0 g1 g2 g3 : κ → ι)
    (hcov : ∀ i : ι, ∃ k : κ, g0 k = i ∨ g1 k = i ∨ g2 k = i ∨ g3 k = i) :
    max (max (max (Finset.univ.fold max b (f ∘ g0)) (Finset.univ.fold max b (f ∘ g1)))
        (Finset.univ.fold max b (f ∘ g2))) (Finset.univ.fold max b (f ∘ g3))
      = Finset.univ.fold max b f := by
  have hb : ∀ g : κ → ι, b ≤ Finset.univ.fold max b (f ∘ g) := fun g =>
    (Finset.le_fold_max _).2 (Or.inl le_rfl)
  have hk : ∀ (g : κ → ι) (k : κ), f (g k) ≤ Finset.univ.fold max b (f ∘ g) := fun g k =>
    (Finset.le_fold_max _).2 (Or.inr ⟨k, Finset.mem_univ k, le_rfl⟩)
  have hrun : ∀ g : κ → ι, Finset.univ.fold max b (f ∘ g) ≤ Finset.univ.fold max b f := fun g =>
    (Finset.fold_max_le _).2 ⟨(Finset.le_fold_max _).2 (Or.inl le_rfl),
      fun k _ => (Finset.le_fold_max _).2 (Or.inr ⟨g k, Finset.mem_univ _, le_rfl⟩)⟩
  apply le_antisymm
  · exact max_le (max_le (max_le (hrun g0) (hrun g1)) (hrun g2)) (hrun g3)
  · refine (Finset.fold_max_le _).2 ⟨?_, fun i _ => ?_⟩
    · exact le_max_of_le_right (hb g3)
    · obtain ⟨k, h | h | h | h⟩ := hcov i
      · rw [← h]; exact le_max_of_le_left (le_max_of_le_left (le_max_of_le_left (hk g0 k)))
      · rw [← h]; exact le_max_of_le_left (le_max_of_le_left (le_max_of_le_right (hk g1 k)))
      · rw [← h]; exact le_max_of_le_left (le_max_of_le_right (hk g2 k))
      · rw [← h]; exact le_max_of_le_right (hk g3 k)

/-- The same for the minimum: both sides are the greatest lower bound of `b` and the terms of `f`. -/
theorem fold_min_runs (b : α) (f : ι → α) (g0 g1 g2 g3 : κ → ι)
    (hcov : ∀ i : ι, ∃ k : κ, g0 k = i ∨ g1 k = i ∨ g2 k = i ∨ g3 k = i) :
    min (min (min (Finset.univ.fold min b (f ∘ g0)) (Finset.univ.fold min b (f ∘ g1)))
        (Finset.univ.fold min b (f ∘ g2))) (Finset.univ.fold min b (f ∘ g3))
      = Finset.univ.fold min b f := by
  have hb : ∀ g : κ → ι, Finset.univ.fold min b (f ∘ g) ≤ b := fun g =>
    (Finset.fold_min_le _).2 (Or.inl le_rfl)
  have hk : ∀ (g : κ → ι) (k : κ), Finset.univ.fold min b (f ∘ g) ≤ f (g k) := fun g k =>
    (Finset.fold_min_le _).2 (Or.inr ⟨k, Finset.mem_univ k, le_rfl⟩)
  have hrun : ∀ g : κ → ι, Finset.univ.fold min b f ≤ Finset.univ.fold min b (f ∘ g) := fun g =>
    (Finset.le_fold_min _).2 ⟨(Finset.fold_min_le _).2 (Or.inl le_rfl),
      fun k _ => (Finset.fold_min_le _).2 (Or.inr ⟨g k, Finset.mem_univ _, le_rfl⟩)⟩
  apply le_antisymm
  · refine (Finset.le_fold_min _).2 ⟨?_, fun i _ => ?_⟩
    · exact min_le_of_right_le (hb g3)
    · obtain ⟨k, h | h | h | h⟩ := hcov i
      · rw [← h]; exact min_le_of_left_le (min_le_of_left_le (min_le_of_left_le (hk g0 k)))
      · rw [← h]; exact min_le_of_left_le (min_le_of_left_le (min_le_of_right_le (hk g1 k)))
      · rw [← h]; exact min_le_of_left_le (min_le_of_right_le (hk g2 k))
      · rw [← h]; exact min_le_of_right_le (hk g3 k)
  · exact le_min (le_min (le_min (hrun g0) (hrun g1)) (hrun g2)) (hrun g3)

end Runs

/-! ## One-axis reductions at the extended reals, read at a result index -/

section OneAxis

variable {s t : Shape} {a : Fin s.rank}

/-- A float vector `multi_reduction` by `minimumf` over one axis, at the extended reals: the fold of `min`, from the
    accumulator word's value, over that axis's coordinates. -/
theorem multiReduction_minimumf_single {φ : FTy} (src : FVec Ideal s φ) (acc : BitVec φ.bits)
    (h : s.Reduces [a] t) (hφ : FKind.Formats φ) (hacc : acc = FKind.minimumf.neutral φ hφ) (j : t.Idx) :
    multiReduction .minimumf [a] t src acc h hφ hacc j
      = (Finset.univ : Finset (Fin (s.size a))).fold min (FloatOps.ofBits φ acc) (src ∘ h.lift j) := by
  rw [multiReduction_minimumf_eq_fold]
  exact h.fold_filter_drop_single _ _ src j

/-- The host's one-operand `reduce` with a `maximumf` body over one axis, at the extended reals: the fold of `max`, from
    the initial value's element, over that axis's coordinates. -/
theorem hostReduce_maximumf_single {u : Shape} {φ : FTy} (x : s.Idx → EReal) (init : u.Idx → EReal)
    (h' : s.ReducesTo [a] t) (h : s.Reduces [a] t) (hu : 0 < u.numel) (j : t.Idx) :
    Host.reduce (FloatOps.maximumf (F := Ideal) (φ := φ)) x init h' hu j
      = (Finset.univ : Finset (Fin (s.size a))).fold max (init (Shape.Idx.first hu)) (x ∘ h.lift j) :=
  Host.reduce_eq_fold_single (FloatOps.maximumf (F := Ideal) (φ := φ)) x init h' h hu j

/-- The same with a `minimumf` body: the fold of `min`. -/
theorem hostReduce_minimumf_single {u : Shape} {φ : FTy} (x : s.Idx → EReal) (init : u.Idx → EReal)
    (h' : s.ReducesTo [a] t) (h : s.Reduces [a] t) (hu : 0 < u.numel) (j : t.Idx) :
    Host.reduce (FloatOps.minimumf (F := Ideal) (φ := φ)) x init h' hu j
      = (Finset.univ : Finset (Fin (s.size a))).fold min (init (Shape.Idx.first hu)) (x ∘ h.lift j) :=
  Host.reduce_eq_fold_single (FloatOps.minimumf (F := Ideal) (φ := φ)) x init h' h hu j

end OneAxis

end Cert.MaxMinFold

end
-- ==== Proof.RefValue.lean ====
/-
  The reference's two results are the specification's weights and output.

  The reference computes the scores with the factor 1/8 applied to the summed products, masks them, and takes the softmax
  along the key axis in the usual five steps — the row maximum (from −∞, then once more against −∞, which changes
  nothing: the fold already starts there), the exponentials of the differences, their row sum from zero, the quotient —
  and contracts the weights with the value rows.  Read at an index written by its four coordinates, each step is the
  specification's, and the scores are the specification's second spelling; for real query and key entries that is the first.
-/
import proofs.«101672_j36876589203488_2_alg».proof.Proof.Gen.ReferenceIdeal.Read
import proofs.«101672_j36876589203488_2_alg».proof.Proof.Spec
import proofs.«101672_j36876589203488_2_alg».proof.Proof.LibMaxMinFold

noncomputable section

open scoped BigOperators

namespace Cert.ReferenceIdeal.RefValue

open Cert.ReferenceIdeal Cert.ReferenceIdeal.Gen Cert.ReferenceIdeal.Read Idealize.ShloMosaic Idealize.ShloMosaic.ValueIdx Cert.Attn

variable (Q K V : (⟨S2x12x2048x64, .f32⟩ : BufTy).Contents (Elt Ideal)) (Fr : (⟨S2x1x2048x2048, .f32⟩ : BufTy).Contents (Elt Ideal))
  (Mk : (⟨S2x1x2048x2048, .i32⟩ : BufTy).Contents (Elt Ideal))

/-! ## Where each operation reads its operand, by coordinates -/

theorem idx_mask (b : Fin 2) (h : Fin 12) (i k : Fin 2048) : idx_main_call0_v1 (ix4 b h i k) = ix4 b (0 : Fin 1) i k :=
  funext fun a => Fin.ext (by match a with | ⟨0, _⟩ => rfl | ⟨1, _⟩ => rfl | ⟨2, _⟩ => rfl | ⟨3, _⟩ => rfl)

theorem idx_freq (b : Fin 2) (h : Fin 12) (i k : Fin 2048) : idx_main_v4 (ix4 b h i k) = ix4 b (0 : Fin 1) i k :=
  funext fun a => Fin.ext (by match a with | ⟨0, _⟩ => rfl | ⟨1, _⟩ => rfl | ⟨2, _⟩ => rfl | ⟨3, _⟩ => rfl)

theorem idx_q (b : Fin 2) (h : Fin 12) (i k : Fin 2048) (d : Fin 64) : lidx_main_v0 (ix4 b h i k) d = ix4 b h i d :=
  funext fun a => Fin.ext (by match a with | ⟨0, _⟩ => rfl | ⟨1, _⟩ => rfl | ⟨2, _⟩ => rfl | ⟨3, _⟩ => rfl)

theorem idx_k (b : Fin 2) (h : Fin 12) (i k : Fin 2048) (d : Fin 64) : ridx_main_v0 (ix4 b h i k) d = ix4 b h k d :=
  funext fun a => Fin.ext (by match a with | ⟨0, _⟩ => rfl | ⟨1, _⟩ => rfl | ⟨2, _⟩ => rfl | ⟨3, _⟩ => rfl)

theorem idx_row_max (b : Fin 2) (h : Fin 12) (i j : Fin 2048) : idx_main_v12 (idx_main_v13 (ix4 b h i j)) = ix3 b h i :=
  funext fun a => Fin.ext (by match a with | ⟨0, _⟩ => rfl | ⟨1, _⟩ => rfl | ⟨2, _⟩ => rfl)

theorem idx_row_sum (b : Fin 2) (h : Fin 12) (i j : Fin 2048) : idx_main_v17 (idx_main_v18 (ix4 b h i j)) = ix3 b h i :=
  funext fun a => Fin.ext (by match a with | ⟨0, _⟩ => rfl | ⟨1, _⟩ => rfl | ⟨2, _⟩ => rfl)

theorem idx_along (b : Fin 2) (h : Fin 12) (i k : Fin 2048) : idx_main_v16 (ix3 b h i) k = ix4 b h i k :=
  funext fun a => Fin.ext (by match a with | ⟨0, _⟩ => rfl | ⟨1, _⟩ => rfl | ⟨2, _⟩ => rfl | ⟨3, _⟩ => rfl)

theorem lift_key (hR : S2x12x2048x2048.Reduces [3] S2x12x2048) (b : Fin 2) (h : Fin 12) (i k : Fin 2048) :
    hR.lift (ix3 b h i) k = ix4 b h i k :=
  funext fun a => Fin.ext (by match a with | ⟨0, _⟩ => rfl | ⟨1, _⟩ => rfl | ⟨2, _⟩ => rfl | ⟨3, _⟩ => rfl)

theorem idx_w (b : Fin 2) (h : Fin 12) (i : Fin 2048) (d : Fin 64) (j : Fin 2048) : lidx_main_v20 (ix4 b h i d) j = ix4 b h i j :=
  funext fun a => Fin.ext (by match a with | ⟨0, _⟩ => rfl | ⟨1, _⟩ => rfl | ⟨2, _⟩ => rfl | ⟨3, _⟩ => rfl)

theorem idx_v (b : Fin 2) (h : Fin 12) (i : Fin 2048) (d : Fin 64) (j : Fin 2048) : ridx_main_v20 (ix4 b h i d) j = ix4 b h j d :=
  funext fun a => Fin.ext (by match a with | ⟨0, _⟩ => rfl | ⟨1, _⟩ => rfl | ⟨2, _⟩ => rfl | ⟨3, _⟩ => rfl)

/-! ## The stages -/

/-- The masked, biased scores at (b, h, i, k). -/
theorem score_apply (b : Fin 2) (h : Fin 12) (i k : Fin 2048) :
    val_main_v8 (F := Ideal) Q K Fr Mk (ix4 b h i k) = scoreOut Q K Fr Mk b h i k := by
  rw [val_main_v8_apply, val_main_call0_v1_apply, val_main_v7_apply, val_main_v6_apply, val_main_c_apply,
    val_main_call0_v2_apply, val_main_call0_v0_apply, val_main_cst_0_apply, val_main_v5_apply, val_main_v2_apply,
    val_main_v0_apply, val_main_v1_apply, val_main_cst_apply, val_main_v4_apply, val_main_v3_apply, idx_mask, idx_freq]
  simp only [idx_q, idx_k]
  rfl

/-- The row maximum, broadcast back, at (b, h, i, j): the fold of `max` from −∞ over the row's scores. -/
theorem rowmax_apply (b : Fin 2) (h : Fin 12) (i j : Fin 2048) :
    val_main_v13 (F := Ideal) Q K Fr Mk (ix4 b h i j) = rowMax (fun k => val_main_v8 (F := Ideal) Q K Fr Mk (ix4 b h i k)) := by
  have hR : S2x12x2048x2048.Reduces [3] S2x12x2048 := by decide
  rw [val_main_v13_apply, val_main_v12_apply, val_main_v11_apply, val_main_v10_apply, val_main_cst_2_apply, idx_row_max]
  unfold val_main_v9
  refine (congrArg (FloatOps.maximumf (F := Ideal) (φ := .f32) _)
    (Cert.MaxMinFold.hostReduce_maximumf_single (φ := .f32) (val_main_v8 (F := Ideal) Q K Fr Mk) (val_main_cst_1 (F := Ideal))
      reducesTo_S2x12x2048x2048_S2x12x2048_d3 hR h_S_ (ix3 b h i))).trans ?_
  have e : (val_main_v8 (F := Ideal) Q K Fr Mk ∘ hR.lift (ix3 b h i)) = fun k => val_main_v8 (F := Ideal) Q K Fr Mk (ix4 b h i k) :=
    funext fun k => congrArg _ (lift_key hR b h i k)
  rw [e]
  exact max_eq_right ((Finset.le_fold_max _).2 (Or.inl le_rfl))

/-- The exponential at (b, h, i, j). -/
theorem exp_apply (b : Fin 2) (h : Fin 12) (i j : Fin 2048) :
    val_main_v15 (F := Ideal) Q K Fr Mk (ix4 b h i j)
      = Ideal.exp (val_main_v8 (F := Ideal) Q K Fr Mk (ix4 b h i j) - rowMax (fun k => val_main_v8 (F := Ideal) Q K Fr Mk (ix4 b h i k))) := by
  rw [val_main_v15_apply, val_main_v14_apply, rowmax_apply]
  rfl

/-- The row sum, broadcast back, at (b, h, i, j). -/
theorem rowsum_apply (b : Fin 2) (h : Fin 12) (i j : Fin 2048) :
    val_main_v18 (F := Ideal) Q K Fr Mk (ix4 b h i j) = ∑ k : Fin 2048, val_main_v15 (F := Ideal) Q K Fr Mk (ix4 b h i k) := by
  rw [val_main_v18_apply, val_main_v17_apply, idx_row_sum, val_main_v16_apply, val_main_cst_3_apply, Ideal.ofBits_def,
    Ideal.ofBits_zero_f32, zero_add]
  exact Finset.sum_congr rfl fun k _ => congrArg _ (idx_along b h i k)

/-- The reference's weights at (b, h, i, j): the softmax of the row's scores. -/
theorem weights_apply_ref (b : Fin 2) (h : Fin 12) (i j : Fin 2048) :
    val_main_v19 (F := Ideal) Q K Fr Mk (ix4 b h i j) = softRow (scoreOut Q K Fr Mk b h i) j := by
  rw [val_main_v19_apply, rowsum_apply, exp_apply]
  simp only [exp_apply, score_apply]
  rfl

/-! ## The two results -/

/-- For real query and key entries the reference's weights are the specification's. -/
theorem ref_weights (hQ : ∀ i, ∃ r : ℝ, Q i = r) (hK : ∀ i, ∃ r : ℝ, K i = r) :
    val_main_v19 (F := Ideal) Q K Fr Mk = weights Q K Fr Mk := by
  funext x
  obtain ⟨b, h, i, j, rfl⟩ : ∃ (b : Fin 2) (h : Fin 12) (i j : Fin 2048), x = ix4 b h i j := ⟨x 0, x 1, x 2, x 3, eq_ix4 x⟩
  rw [weights_apply_ref, weights_apply, scoreIn_eq_scoreOut Q K Fr Mk hQ hK]

/-- … and its output the specification's. -/
theorem ref_output (hQ : ∀ i, ∃ r : ℝ, Q i = r) (hK : ∀ i, ∃ r : ℝ, K i = r) :
    val_main_v20 (F := Ideal) Q K V Fr Mk = output Q K V Fr Mk := by
  funext x
  obtain ⟨b, h, i, d, rfl⟩ : ∃ (b : Fin 2) (h : Fin 12) (i : Fin 2048) (d : Fin 64), x = ix4 b h i d := ⟨x 0, x 1, x 2, x 3, eq_ix4 x⟩
  rw [val_main_v20_apply, output_apply, ref_weights Q K Fr Mk hQ hK]
  exact Finset.sum_congr rfl fun j _ => congrArg₂ (· * ·) (congrArg _ (idx_w b h i d j)) (congrArg V (idx_v b h i d j))

end Cert.ReferenceIdeal.RefValue

end
-- ==== Proof.LibKeepdimsLayout.lean ====
/-
  Layout operations read at an index given by coordinates, for the shapes a row-wise reduction with a kept axis and a
  block with two leading unit axes produce: a vector `[a]` cast to a column `[a, 1]`, a column `[a, 1]` broadcast
  along its rows to `[a, b]`, and the casts between `[1, 1, a, b]` and `[a, b]`. A cast keeps the row-major position,
  and a unit axis contributes nothing to it; a broadcast re-reads the column's one entry of the row at every column.
  Each lemma is the general read-at-an-index lemma of the operation with both indices written by coordinates, so that
  it applies to a printed operation by unification.
-/
import Idealize.ShloMosaic.Lib.Pipeline.Value
import Idealize.ShloMosaic.Lib.ValueIdx

namespace Cert.LayoutKeepdims

open Idealize.ShloMosaic Idealize.ShloMosaic.ValueIdx

variable {α : Type}

/-- A `[1, 1, a, b]` array cast to `[a, b]` reads, at `(i, j)`, the operand at `(0, 0, i, j)`. -/
theorem shapeCast_11ab_ab_apply {a b : ℕ} (x : (⟨4, ![1, 1, a, b]⟩ : Shape).Idx → α)
    (h : (⟨4, ![1, 1, a, b]⟩ : Shape).ShapeCasts ⟨2, ![a, b]⟩) (i : Fin a) (j : Fin b) :
    shapeCast ⟨2, ![a, b]⟩ x h (ix2 i j) = x (ix4 (0 : Fin 1) (0 : Fin 1) i j) :=
  shapeCast_apply x h _ _ (by
    rw [Shape.rowMajor_val_four, Shape.rowMajor_val_two]
    show ((0 * 1 + 0) * a + i.val) * b + j.val = i.val * b + j.val
    simp only [Nat.zero_mul, Nat.zero_add])

/-- An `[a, b]` array cast to `[1, 1, a, b]` reads, at `(u, u', i, j)`, the operand at `(i, j)`, whatever the two unit
    coordinates. -/
theorem shapeCast_ab_11ab_apply {a b : ℕ} (x : (⟨2, ![a, b]⟩ : Shape).Idx → α)
    (h : (⟨2, ![a, b]⟩ : Shape).ShapeCasts ⟨4, ![1, 1, a, b]⟩) (u u' : Fin 1) (i : Fin a) (j : Fin b) :
    shapeCast ⟨4, ![1, 1, a, b]⟩ x h (ix4 u u' i j) = x (ix2 i j) :=
  shapeCast_apply x h _ _ (by
    have hu : u.val = 0 := by omega
    have hu' : u'.val = 0 := by omega
    rw [Shape.rowMajor_val_four, Shape.rowMajor_val_two]
    show i.val * b + j.val = ((u.val * 1 + u'.val) * a + i.val) * b + j.val
    simp only [hu, hu', Nat.zero_mul, Nat.zero_add])

/-- A vector `[a]` cast to a column `[a, 1]` reads, at `(i, u)`, the operand at `i`, whatever the unit coordinate. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(i, j)`, the column's entry of row `i`. -/
theorem broadcastTo_a1_ab_apply {a b : ℕ} (v : (⟨2, ![a, 1]⟩ : Shape).Idx → α) (h : (⟨2, ![a, 1]⟩ : Shape).Broadcasts ⟨2, ![a, b]⟩)
    (i : Fin a) (j : Fin b) : broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

end Cert.LayoutKeepdims
-- ==== Proof.LibDotLastAxes.lean ====
/-
  A product of two matrices along the LAST axis of both, read at an entry.

  `x @ W.T` — a [M, K] matrix against a [N, K] matrix, contracting the K axis of each — has at (p, f) the entry
  Σ_k x[p, k] · W[f, k]. Over the extended reals this holds of the kernel's matrix unit started from the zero splat and of the
  host's `dot_general` alike, whatever order either sums in. The dimension numbers enter only through four coordinate facts
  (which operand coordinate is the result's row, the result's column, the contraction's index); a caller proves them of its
  own record and gets the entry as a sum over `Fin K`.
-/
import Idealize.ShloMosaic.PureOps.Ideal.Laws
import Idealize.ShloMosaic.Lib.ValueIdx

noncomputable section

open scoped BigOperators

namespace Idealize.ShloMosaic.DotLastAxes

open Idealize.ShloMosaic Idealize.ShloMosaic.ValueIdx

variable {M N K : ℕ} {φ₁ φ₂ : FTy}

/-- The two operand indices at result entry (p, f) and contraction coordinate k are (p, k) and (f, k). -/
theorem operand_idx (D : DotDims ⟨2, ![M, K]⟩ ⟨2, ![N, K]⟩ ⟨2, ![M, N]⟩)
    (hr : D.contr.rank = 1) (hs : D.contr.size ⟨0, by omega⟩ = K)
    (hl0 : ∀ j q, (D.lhsIdx j q 0).val = (j 0).val) (hl1 : ∀ j q, (D.lhsIdx j q 1).val = (q ⟨0, by omega⟩).val)
    (hr0 : ∀ j q, (D.rhsIdx j q 0).val = (j 1).val) (hr1 : ∀ j q, (D.rhsIdx j q 1).val = (q ⟨0, by omega⟩).val)
    (p : Fin M) (f : Fin N) (k : Fin K) :
    D.lhsIdx (ix2 p f) ((contrEquiv1 D K hr hs).symm k) = ix2 p k
      ∧ D.rhsIdx (ix2 p f) ((contrEquiv1 D K hr hs).symm k) = ix2 f k := by
  have hk := contrEquiv1_symm_val D K hr hs k
  refine ⟨funext fun a => Fin.ext ?_, funext fun a => Fin.ext ?_⟩
  · match a with
    | ⟨0, _⟩ => exact hl0 _ _
    | ⟨1, _⟩ => exact (hl1 _ _).trans hk
  · match a with
    | ⟨0, _⟩ => exact hr0 _ _
    | ⟨1, _⟩ => exact (hr1 _ _).trans hk

/-- THE MATRIX UNIT from the zero splat: entry (p, f) is Σ_k lhs[p, k] · rhs[f, k]. -/
theorem matmul_zero_apply (D : DotDims ⟨2, ![M, K]⟩ ⟨2, ![N, K]⟩ ⟨2, ![M, N]⟩)
    (hr : D.contr.rank = 1) (hs : D.contr.size ⟨0, by omega⟩ = K)
    (hl0 : ∀ j q, (D.lhsIdx j q 0).val = (j 0).val) (hl1 : ∀ j q, (D.lhsIdx j q 1).val = (q ⟨0, by omega⟩).val)
    (hr0 : ∀ j q, (D.rhsIdx j q 0).val = (j 1).val) (hr1 : ∀ j q, (D.rhsIdx j q 1).val = (q ⟨0, by omega⟩).val)
    (prec : Option ContractPrecision) (lhs : FVec Ideal ⟨2, ![M, K]⟩ φ₁) (rhs : FVec Ideal ⟨2, ![N, K]⟩ φ₂) (p : Fin M) (f : Fin N) :
    FloatOps.matmul D prec lhs rhs (constant (F := Ideal) ⟨2, ![M, N]⟩ .f32 0x00000000#32) (ix2 p f)
      = ∑ k : Fin K, lhs (ix2 p k) * rhs (ix2 f k) := by
  rw [Ideal.matmul_constant_zero_apply, ← Equiv.sum_comp (contrEquiv1 D K hr hs).symm]
  refine Finset.sum_congr rfl fun k _ => ?_
  obtain ⟨el, er⟩ := operand_idx D hr hs hl0 hl1 hr0 hr1 p f k
  rw [el, er]

/-- THE HOST'S `dot_general`: the same entry, the same sum. -/
theorem dotGeneral_apply (D : DotDims ⟨2, ![M, K]⟩ ⟨2, ![N, K]⟩ ⟨2, ![M, N]⟩)
    (hr : D.contr.rank = 1) (hs : D.contr.size ⟨0, by omega⟩ = K)
    (hl0 : ∀ j q, (D.lhsIdx j q 0).val = (j 0).val) (hl1 : ∀ j q, (D.lhsIdx j q 1).val = (q ⟨0, by omega⟩).val)
    (hr0 : ∀ j q, (D.rhsIdx j q 0).val = (j 1).val) (hr1 : ∀ j q, (D.rhsIdx j q 1).val = (q ⟨0, by omega⟩).val)
    (prec : Option ContractPrecision) (sched : HostSchedule)
    (lhs : FVec Ideal ⟨2, ![M, K]⟩ φ₁) (rhs : FVec Ideal ⟨2, ![N, K]⟩ φ₂) (p : Fin M) (f : Fin N) :
    FloatOps.dotGeneral D prec sched lhs rhs (ix2 p f) = ∑ k : Fin K, lhs (ix2 p k) * rhs (ix2 f k) := by
  rw [Ideal.dotGeneral_apply, ← Equiv.sum_comp (contrEquiv1 D K hr hs).symm]
  refine Finset.sum_congr rfl fun k _ => ?_
  obtain ⟨el, er⟩ := operand_idx D hr hs hl0 hl1 hr0 hr1 p f k
  rw [el, er]

end Idealize.ShloMosaic.DotLastAxes

end
-- ==== Proof.LibDotInner.lean ====
/-
  A product of two matrices along the last axis of the first and the first axis of the second, read at an entry.

  `x @ W` — a [M, K] matrix against a [K, N] matrix — has at (p, f) the entry Σ_k x[p, k] · W[k, f]. Over the extended reals
  this holds of the matrix unit started from the zero splat, whatever order it sums in. The dimension numbers enter only through
  four coordinate facts (which operand coordinate is the result's row, the result's column, the contraction's index); a
  caller proves them of its own record and gets the entry as a sum over `Fin K`.
-/
import Idealize.ShloMosaic.PureOps.Ideal.Laws
import Idealize.ShloMosaic.Lib.ValueIdx

noncomputable section

open scoped BigOperators

namespace Idealize.ShloMosaic.DotInner

open Idealize.ShloMosaic Idealize.ShloMosaic.ValueIdx

variable {M N K : ℕ} {φ₁ φ₂ : FTy}

/-- The two operand indices at result entry (p, f) and contraction coordinate k are (p, k) and (k, f). -/
theorem operand_idx (D : DotDims ⟨2, ![M, K]⟩ ⟨2, ![K, N]⟩ ⟨2, ![M, N]⟩)
    (hr : D.contr.rank = 1) (hs : D.contr.size ⟨0, by omega⟩ = K)
    (hl0 : ∀ j q, (D.lhsIdx j q 0).val = (j 0).val) (hl1 : ∀ j q, (D.lhsIdx j q 1).val = (q ⟨0, by omega⟩).val)
    (hr0 : ∀ j q, (D.rhsIdx j q 0).val = (q ⟨0, by omega⟩).val) (hr1 : ∀ j q, (D.rhsIdx j q 1).val = (j 1).val)
    (p : Fin M) (f : Fin N) (k : Fin K) :
    D.lhsIdx (ix2 p f) ((contrEquiv1 D K hr hs).symm k) = ix2 p k
      ∧ D.rhsIdx (ix2 p f) ((contrEquiv1 D K hr hs).symm k) = ix2 k f := by
  have hk := contrEquiv1_symm_val D K hr hs k
  refine ⟨funext fun a => Fin.ext ?_, funext fun a => Fin.ext ?_⟩
  · match a with
    | ⟨0, _⟩ => exact hl0 _ _
    | ⟨1, _⟩ => exact (hl1 _ _).trans hk
  · match a with
    | ⟨0, _⟩ => exact (hr0 _ _).trans hk
    | ⟨1, _⟩ => exact hr1 _ _

/-- THE MATRIX UNIT from the zero splat: entry (p, f) is Σ_k lhs[p, k] · rhs[k, f]. -/
theorem matmul_zero_apply (D : DotDims ⟨2, ![M, K]⟩ ⟨2, ![K, N]⟩ ⟨2, ![M, N]⟩)
    (hr : D.contr.rank = 1) (hs : D.contr.size ⟨0, by omega⟩ = K)
    (hl0 : ∀ j q, (D.lhsIdx j q 0).val = (j 0).val) (hl1 : ∀ j q, (D.lhsIdx j q 1).val = (q ⟨0, by omega⟩).val)
    (hr0 : ∀ j q, (D.rhsIdx j q 0).val = (q ⟨0, by omega⟩).val) (hr1 : ∀ j q, (D.rhsIdx j q 1).val = (j 1).val)
    (prec : Option ContractPrecision) (lhs : FVec Ideal ⟨2, ![M, K]⟩ φ₁) (rhs : FVec Ideal ⟨2, ![K, N]⟩ φ₂) (p : Fin M) (f : Fin N) :
    FloatOps.matmul D prec lhs rhs (constant (F := Ideal) ⟨2, ![M, N]⟩ .f32 0x00000000#32) (ix2 p f)
      = ∑ k : Fin K, lhs (ix2 p k) * rhs (ix2 k f) := by
  rw [Ideal.matmul_constant_zero_apply, ← Equiv.sum_comp (contrEquiv1 D K hr hs).symm]
  refine Finset.sum_congr rfl fun k _ => ?_
  obtain ⟨el, er⟩ := operand_idx D hr hs hl0 hl1 hr0 hr1 p f k
  rw [el, er]

end Idealize.ShloMosaic.DotInner

end
-- ==== Proof.Payload.lean ====
/-
  The kernel body's two stored values, read entry by entry over the extended reals.

  A grid point holds a block of 512 query rows (of one batch entry and one head), all 2048 key rows and value rows of that
  batch entry and head, and the 512 × 2048 blocks of the frequency and mask arrays for those query rows.  From them the body
  computes, for query row `r` of the block:
    the scores   s k = ((Σ_d (q[r,d] · 1/8) · key[k,d]) · 1) + log freq[r,k],  masked to −10⁹ where mask[r,k] = 0,
    the weights  exp (s j − max_k s k) / Σ_k exp (s k − max_k s k)                 — the first stored value —
    the output   Σ_j weights[r,j] · value[j,d]                                       — the second.
  Each reading below is the operation's own reading at an index: a cast between [1,1,a,b] and [a,b] keeps (a,b); a maximum
  or sum along the row is a fold or sum over the row's positions; a kept-axis column broadcast back re-reads the row's one
  entry; the matrix unit from the zero accumulator is the plain sum of products.
-/
import proofs.«101672_j36876589203488_2_alg».proof.Proof.Gen.KernelIdeal.Skeleton
import proofs.«101672_j36876589203488_2_alg».proof.Proof.Softmax
import proofs.«101672_j36876589203488_2_alg».proof.Proof.LibKeepdimsLayout
import proofs.«101672_j36876589203488_2_alg».proof.Proof.LibDotLastAxes
import proofs.«101672_j36876589203488_2_alg».proof.Proof.LibDotInner
import Idealize.ShloMosaic.PureOps.Ideal.Laws
import Idealize.ShloMosaic.Lib.ValueIdx
import Idealize.ShloMosaic.Lib.Pipeline.Value

noncomputable section

open scoped BigOperators

namespace Cert.KernelIdeal.Payload

open Cert.KernelIdeal Cert.KernelIdeal.Gen Idealize.ShloMosaic Idealize.ShloMosaic.ValueIdx Cert.Attn Cert.LayoutKeepdims

/-! ## Along a row of a [512, 2048] block -/

/-- Position `k` of row `r`: the row index with `k` inserted on the dropped axis. -/
theorem lift_row (h : S512x2048.Reduces [1] S512) (r : Fin 512) (k : Fin 2048) : h.lift (ix1 r) k = ix2 r k :=
  funext fun a => Fin.ext (by match a with | ⟨0, _⟩ => rfl | ⟨1, _⟩ => rfl)

/-- Each row's maximum, written back along the row. -/
def rowMaxB (s : FVec Ideal S512x2048 .f32) : FVec Ideal S512x2048 .f32 :=
  broadcastTo S512x2048 (shapeCast S512x1 (multiReduction .maximumf [1] S512 s 0xFF800000#32 reduces_S512x2048_S512 (.inl rfl) rfl) shapeCasts_S512_S512x1) broadcasts_S512x1_S512x2048

/-- Each row's sum, written back along the row. -/
def rowSumB (e : FVec Ideal S512x2048 .f32) : FVec Ideal S512x2048 .f32 :=
  broadcastTo S512x2048 (shapeCast S512x1 (multiReduction .add [1] S512 e 0x00000000#32 reduces_S512x2048_S512 (.inl rfl) rfl) shapeCasts_S512_S512x1) broadcasts_S512x1_S512x2048

theorem rowMaxB_apply (s : FVec Ideal S512x2048 .f32) (r : Fin 512) (j : Fin 2048) :
    rowMaxB s (ix2 r j) = rowMax (fun k => s (ix2 r k)) := by
  unfold rowMaxB
  refine (broadcastTo_a1_ab_apply _ _ r j).trans ?_
  refine (shapeCast_a_a1_apply _ _ r 0).trans ?_
  refine (Ideal.multiReduction_maximumf_single s 0xFF800000#32 reduces_S512x2048_S512 (.inl rfl) rfl (ix1 r)).trans ?_
  unfold rowMax
  exact congrArg (fun f => Finset.fold max (Ideal.ofBits .f32 0xFF800000#32) f Finset.univ)
    (funext fun k => congrArg s (lift_row reduces_S512x2048_S512 r k))

theorem rowSumB_apply (e : FVec Ideal S512x2048 .f32) (r : Fin 512) (j : Fin 2048) :
    rowSumB e (ix2 r j) = ∑ k : Fin 2048, e (ix2 r k) := by
  unfold rowSumB
  refine (broadcastTo_a1_ab_apply _ _ r j).trans ?_
  refine (shapeCast_a_a1_apply _ _ r 0).trans ?_
  refine (Ideal.multiReduction_add_single e 0x00000000#32 reduces_S512x2048_S512 (.inl rfl) rfl (ix1 r)).trans ?_
  exact Finset.sum_congr rfl fun k _ => congrArg e (lift_row _ r k)

/-- The exponentials of a block's scores less their row's maximum. -/
def expB (s : FVec Ideal S512x2048 .f32) : FVec Ideal S512x2048 .f32 := exp (subf s (rowMaxB s))

/-- The softmax of a block of scores along its rows. -/
def softB (s : FVec Ideal S512x2048 .f32) : FVec Ideal S512x2048 .f32 := divf (expB s) (rowSumB (expB s))

theorem expB_apply (s : FVec Ideal S512x2048 .f32) (r : Fin 512) (j : Fin 2048) :
    expB s (ix2 r j) = Ideal.exp (s (ix2 r j) - rowMax (fun k => s (ix2 r k))) := by
  show Ideal.exp (s (ix2 r j) - rowMaxB s (ix2 r j)) = _
  rw [rowMaxB_apply]

theorem softB_apply (s : FVec Ideal S512x2048 .f32) (r : Fin 512) (j : Fin 2048) :
    softB s (ix2 r j) = softRow (fun k => s (ix2 r k)) j := by
  show Ideal.div (expB s (ix2 r j)) (rowSumB (expB s) (ix2 r j)) = _
  rw [rowSumB_apply, expB_apply]
  unfold softRow
  exact congrArg _ (Finset.sum_congr rfl fun k _ => expB_apply s r k)

/-! ## The scores -/

section Scores

variable (v0 : FVec Ideal S1x1x512x64 .f32) (v5 : FVec Ideal S1x1x2048x64 .bf16) (v10 : FVec Ideal S1x1x512x2048 .f32) (v14 : IVec S1x1x512x2048 32)

/-- The scaled query rows against the key rows, times one. -/
def qkB : FVec Ideal S512x2048 .f32 :=
  mulf (matmul dot_S512x64_S2048x64_S512x2048_1_1_0_0_n_n none
      (truncf .bf16 (mulf (shapeCast S512x64 v0 shapeCasts_S1x1x512x64_S512x64 : FVec Ideal S512x64 .f32) (broadcast S512x64 (Scalar.ofBits .f32 0x3E000000#32))) bitsLt_bf16_f32 : FVec Ideal S512x64 .bf16)
      (shapeCast S2048x64 v5 shapeCasts_S1x1x2048x64_S2048x64 : FVec Ideal S2048x64 .bf16) (constant S512x2048 .f32 0x00000000#32))
    (broadcast S512x2048 (Scalar.ofBits .f32 0x3F800000#32))

/-- The masked, biased scores of the block. -/
def scoreB : FVec Ideal S512x2048 .f32 :=
  select (cmpi .eq (shapeCast S512x2048 v14 shapeCasts_S1x1x512x2048_S512x2048 : IVec S512x2048 32) (broadcast S512x2048 0#32))
    (broadcast S512x2048 (Scalar.ofBits .f32 0xCE6E6B28#32))
    (addf (qkB v0 v5) (log (shapeCast S512x2048 v10 shapeCasts_S1x1x512x2048_S512x2048 : FVec Ideal S512x2048 .f32)))

set_option maxRecDepth 65536 in
/-- The body's weights are the row softmax of its scores: the printed value, regrouped. -/
theorem pay3_eq : k0_pay3 (F := Ideal) v0 v5 v10 v14 = softB (scoreB v0 v5 v10 v14) := rfl

theorem dot_qk_l0 (j : S512x2048.Idx) (q : dot_S512x64_S2048x64_S512x2048_1_1_0_0_n_n.contr.Idx) :
    (dot_S512x64_S2048x64_S512x2048_1_1_0_0_n_n.lhsIdx j q 0).val = (j 0).val := by
  unfold DotDims.lhsIdx
  rw [dif_neg (show ¬(0 : Fin S512x64.rank) ∈ dot_S512x64_S2048x64_S512x2048_1_1_0_0_n_n.lhsBatch by decide), dif_pos (show (0 : Fin S512x64.rank) ∈ dot_S512x64_S2048x64_S512x2048_1_1_0_0_n_n.lhsNonContracting by decide)]
  rfl

theorem dot_qk_r0 (j : S512x2048.Idx) (q : dot_S512x64_S2048x64_S512x2048_1_1_0_0_n_n.contr.Idx) :
    (dot_S512x64_S2048x64_S512x2048_1_1_0_0_n_n.rhsIdx j q 0).val = (j 1).val := by
  unfold DotDims.rhsIdx
  rw [dif_neg (show ¬(0 : Fin S2048x64.rank) ∈ dot_S512x64_S2048x64_S512x2048_1_1_0_0_n_n.rhsBatch by decide), dif_pos (show (0 : Fin S2048x64.rank) ∈ dot_S512x64_S2048x64_S512x2048_1_1_0_0_n_n.rhsNonContracting by decide)]
  rfl

theorem qkB_apply (r : Fin 512) (k : Fin 2048) :
    qkB v0 v5 (ix2 r k)
      = (∑ d : Fin 64, (v0 (ix4 0 0 r d) * Ideal.ofBits .f32 0x3E000000#32) * v5 (ix4 0 0 k d)) * Ideal.ofBits .f32 0x3F800000#32 := by
  unfold qkB
  refine (mulf_apply _ _ _).trans ?_
  refine congrArg₂ (· * ·) ?_ rfl
  refine (Idealize.ShloMosaic.DotLastAxes.matmul_zero_apply dot_S512x64_S2048x64_S512x2048_1_1_0_0_n_n rfl rfl
    dot_qk_l0 (fun j q => dot_S512x64_S2048x64_S512x2048_1_1_0_0_n_n.lhsIdx_val_of_single rfl j q)
    dot_qk_r0 (fun j q => dot_S512x64_S2048x64_S512x2048_1_1_0_0_n_n.rhsIdx_val_of_single rfl j q) none _ _ r k).trans ?_
  refine Finset.sum_congr rfl fun d _ => ?_
  refine congrArg₂ (· * ·) ?_ (shapeCast_11ab_ab_apply v5 _ k d)
  exact congrArg₂ (· * ·) (shapeCast_11ab_ab_apply v0 _ r d) rfl

theorem scoreB_apply (r : Fin 512) (k : Fin 2048) :
    scoreB v0 v5 v10 v14 (ix2 r k)
      = masked (v14 (ix4 0 0 r k))
          ((∑ d : Fin 64, (v0 (ix4 0 0 r d) * Ideal.ofBits .f32 0x3E000000#32) * v5 (ix4 0 0 k d)) * Ideal.ofBits .f32 0x3F800000#32
            + Ideal.log (v10 (ix4 0 0 r k))) := by
  unfold scoreB masked
  refine (select_apply _ _ _ _).trans ?_
  refine congr (congrArg₂ Scalar.select ?_ rfl) ?_
  · exact congrArg₂ (IntOp.cmpi .eq) (shapeCast_11ab_ab_apply v14 _ r k) rfl
  · refine (addf_apply _ _ _).trans ?_
    exact congrArg₂ (· + ·) (qkB_apply v0 v5 r k) (congrArg Ideal.log (shapeCast_11ab_ab_apply v10 _ r k))

/-- THE WEIGHTS at (r, j): the softmax, along row `r`, of the masked and biased scores. -/
theorem pay3_apply (r : Fin 512) (j : Fin 2048) :
    k0_pay3 (F := Ideal) v0 v5 v10 v14 (ix2 r j)
      = softRow (fun k => masked (v14 (ix4 0 0 r k))
          ((∑ d : Fin 64, (v0 (ix4 0 0 r d) * Ideal.ofBits .f32 0x3E000000#32) * v5 (ix4 0 0 k d)) * Ideal.ofBits .f32 0x3F800000#32
            + Ideal.log (v10 (ix4 0 0 r k)))) j := by
  rw [pay3_eq, softB_apply]
  exact congrArg (fun s => softRow s j) (funext fun k => scoreB_apply v0 v5 v10 v14 r k)

end Scores

/-! ## The output block -/

theorem dot_pv_l0 (j : S512x64.Idx) (q : dot_S512x2048_S2048x64_S512x64_1_0_0_1_n_n.contr.Idx) :
    (dot_S512x2048_S2048x64_S512x64_1_0_0_1_n_n.lhsIdx j q 0).val = (j 0).val := by
  unfold DotDims.lhsIdx
  rw [dif_neg (show ¬(0 : Fin S512x2048.rank) ∈ dot_S512x2048_S2048x64_S512x64_1_0_0_1_n_n.lhsBatch by decide), dif_pos (show (0 : Fin S512x2048.rank) ∈ dot_S512x2048_S2048x64_S512x64_1_0_0_1_n_n.lhsNonContracting by decide)]
  rfl

theorem dot_pv_r1 (j : S512x64.Idx) (q : dot_S512x2048_S2048x64_S512x64_1_0_0_1_n_n.contr.Idx) :
    (dot_S512x2048_S2048x64_S512x64_1_0_0_1_n_n.rhsIdx j q 1).val = (j 1).val := by
  unfold DotDims.rhsIdx
  rw [dif_neg (show ¬(1 : Fin S2048x64.rank) ∈ dot_S512x2048_S2048x64_S512x64_1_0_0_1_n_n.rhsBatch by decide), dif_pos (show (1 : Fin S2048x64.rank) ∈ dot_S512x2048_S2048x64_S512x64_1_0_0_1_n_n.rhsNonContracting by decide)]
  rfl

/-- THE OUTPUT at (u, u', r, d): the weights of row `r` against column `d` of the value rows. -/
theorem pay2_apply (w : FVec Ideal S512x2048 .f32) (v32 : FVec Ideal S1x1x2048x64 .bf16) (u u' : Fin 1) (r : Fin 512) (d : Fin 64) :
    k0_pay2 (F := Ideal) w v32 (ix4 u u' r d) = ∑ j : Fin 2048, w (ix2 r j) * v32 (ix4 0 0 j d) := by
  unfold k0_pay2
  refine (shapeCast_ab_11ab_apply _ _ u u' r d).trans ?_
  refine (Idealize.ShloMosaic.DotInner.matmul_zero_apply dot_S512x2048_S2048x64_S512x64_1_0_0_1_n_n rfl rfl
    dot_pv_l0 (fun j q => dot_S512x2048_S2048x64_S512x64_1_0_0_1_n_n.lhsIdx_val_of_single rfl j q)
    (fun j q => dot_S512x2048_S2048x64_S512x64_1_0_0_1_n_n.rhsIdx_val_of_single rfl j q) dot_pv_r1 none _ _ r d).trans ?_
  exact Finset.sum_congr rfl fun j _ => congrArg₂ (· * ·) rfl (shapeCast_11ab_ab_apply v32 _ j d)

end Cert.KernelIdeal.Payload

end
-- ==== Proof.Blocks.lean ====
/-
  From the blocks to the arrays: after the kernel's run the two result arrays hold the specification's output and weights.

  The grid has a point per (batch entry b, query tile qi, head h).  At that point the query block is rows qi·512 … qi·512+511
  of (b, h); the key and value blocks are all 2048 rows of (b, h) — of the arrays the host wrote before the launch, which
  over the extended reals are the key and value arguments themselves, a change of float format being the identity; the
  frequency and mask blocks are the same 512 rows of (b, 0); and the two result blocks are those 512 rows of (b, h).  So what
  the body leaves at the point, entry (r, ·) of its block, is the specification at row qi·512 + r of (b, h); the result
  blocks over all points tile the result arrays (the point covering row i is the one with qi = i / 512).
-/
import proofs.«101672_j36876589203488_2_alg».proof.Proof.Gen.KernelIdeal.Value
import proofs.«101672_j36876589203488_2_alg».proof.Proof.Payload
import proofs.«101672_j36876589203488_2_alg».proof.Proof.Spec
import Idealize.ShloMosaic.Lib.StableHlo.Run
import Idealize.ShloMosaic.Lib.Pipeline.Value

noncomputable section

open scoped BigOperators

namespace Cert.KernelIdeal.Blocks

open Cert.KernelIdeal Cert.KernelIdeal.Gen Cert.KernelIdeal.Payload Idealize.ShloMosaic Idealize.ShloMosaic.TcCoe Idealize.SL.Sem
open Idealize.ShloMosaic.ValueIdx Cert.Attn Cert.LayoutKeepdims
open Idealize.ShloMosaic.Pipeline (Dat)

variable (m : (ℓ : Loc nD τ sig) → Buf (Elt Ideal) ℓ) (ρ : Dev nD → PrngReg)

/-! ## The specification at the argument arrays -/

/-- The weights of the argument arrays as launched. -/
def Gw (c : Dev nD) : S2x12x2048x2048.Idx → EReal :=
  weights (m ((c : Thread nD τ).loc main_arg0)) (m ((c : Thread nD τ).loc main_arg1)) (m ((c : Thread nD τ).loc main_arg3)) (m ((c : Thread nD τ).loc main_arg4))

/-- The output of the argument arrays as launched. -/
def Go (c : Dev nD) : S2x12x2048x64.Idx → EReal :=
  output (m ((c : Thread nD τ).loc main_arg0)) (m ((c : Thread nD τ).loc main_arg1)) (m ((c : Thread nD τ).loc main_arg2)) (m ((c : Thread nD τ).loc main_arg3)) (m ((c : Thread nD τ).loc main_arg4))

/-! ## The arrays the host wrote before the launch -/

/-- The key array in the narrower format is, entry by entry, the key argument. -/
theorem V_key (c : Dev nD) : (V m c main_v0 : S2x12x2048x64.Idx → EReal) = (m ((c : Thread nD τ).loc main_arg1) : S2x12x2048x64.Idx → EReal) := by
  dsimp only [V, hostOps0]; after_results; rfl

/-- The value array in the narrower format is, entry by entry, the value argument. -/
theorem V_value (c : Dev nD) : (V m c main_v1 : S2x12x2048x64.Idx → EReal) = (m ((c : Thread nD τ).loc main_arg2) : S2x12x2048x64.Idx → EReal) := by
  dsimp only [V, hostOps0]; after_results; rfl

/-! ## The index maps over the grid -/

theorem hz : (![0, 0, 0, 0] : Fin 4 → Nat) = fun _ => 0 := funext fun a => by fin_cases a <;> rfl

/-- Every point is a (batch entry, head, query tile), and the seven windows' block indices at it are as the launch says. -/
theorem idx_facts : ∀ t : Fin cfg0.N, ∃ (b : Fin 2) (h : Fin 12) (qi : Fin 4),
    win0_0.index t = ![b.val, h.val, qi.val, 0] ∧ win0_1.index t = ![b.val, h.val, 0, 0] ∧ win0_2.index t = ![b.val, h.val, 0, 0]
    ∧ win0_3.index t = ![b.val, 0, qi.val, 0] ∧ win0_4.index t = ![b.val, 0, qi.val, 0]
    ∧ win0_5.index t = ![b.val, h.val, qi.val, 0] ∧ win0_6.index t = ![b.val, h.val, qi.val, 0] :=
  (by decide +kernel : ∀ t : Fin grid0.N, _)

/-- Every (batch entry, head, query tile) is some point's. -/
theorem idx_onto : ∀ (b : Fin 2) (h : Fin 12) (qi : Fin 4), ∃ t : Fin cfg0.N,
    win0_5.index t = ![b.val, h.val, qi.val, 0] ∧ win0_6.index t = ![b.val, h.val, qi.val, 0] :=
  (by decide +kernel : ∀ (b : Fin 2) (h : Fin 12) (qi : Fin 4), ∃ t : Fin grid0.N, _)

/-! ## The input blocks at a point, by coordinates -/

section Point

variable (c : Dev nD) (t : Fin cfg0.N) (b : Fin 2) (h : Fin 12) (qi : Fin 4)

/-- The query block's entry (r, d) is the query argument at row qi·512 + r of (b, h). -/
theorem query_blk (e : win0_0.index t = ![b.val, h.val, qi.val, 0]) (r : Fin 512) (d : Fin 64) (hrow : qi.val * 512 + r.val < 2048) :
    iblk m c 0 t (ix4 (0 : Fin 1) (0 : Fin 1) r d) = m ((c : Thread nD τ).loc main_arg0) (ix4 b h ⟨qi.val * 512 + r.val, hrow⟩ d) := by
  have e0 : win0_0.index t (0 : Fin 4) = b.val := congrFun e 0
  have e1 : win0_0.index t (1 : Fin 4) = h.val := congrFun e 1
  have e2 : win0_0.index t (2 : Fin 4) = qi.val := congrFun e 2
  have e3 : win0_0.index t (3 : Fin 4) = 0 := congrFun e 3
  show V m c main_arg0 (((cfg0.win 0).blk t).view.emb (ix4 (0 : Fin 1) (0 : Fin 1) r d)) = _
  rw [V_main_arg0]
  refine congrArg _ (funext fun a => Fin.ext ?_)
  match a with
  | ⟨0, _⟩ => show win0_0.index t (0 : Fin 4) * 1 + 1 * 0 = b.val; omega
  | ⟨1, _⟩ => show win0_0.index t (1 : Fin 4) * 1 + 1 * 0 = h.val; omega
  | ⟨2, _⟩ => show win0_0.index t (2 : Fin 4) * 512 + 1 * r.val = qi.val * 512 + r.val; omega
  | ⟨3, _⟩ => show win0_0.index t (3 : Fin 4) * 64 + 1 * d.val = d.val; omega

/-- The key block's entry (k, d) is the key argument at row k of (b, h). -/
theorem key_blk (e : win0_1.index t = ![b.val, h.val, 0, 0]) (k : Fin 2048) (d : Fin 64) :
    iblk m c 1 t (ix4 (0 : Fin 1) (0 : Fin 1) k d) = m ((c : Thread nD τ).loc main_arg1) (ix4 b h k d) := by
  have e0 : win0_1.index t (0 : Fin 4) = b.val := congrFun e 0
  have e1 : win0_1.index t (1 : Fin 4) = h.val := congrFun e 1
  have e2 : win0_1.index t (2 : Fin 4) = 0 := congrFun e 2
  have e3 : win0_1.index t (3 : Fin 4) = 0 := congrFun e 3
  show V m c main_v0 (((cfg0.win 1).blk t).view.emb (ix4 (0 : Fin 1) (0 : Fin 1) k d)) = _
  refine (congrFun (V_key m c) _).trans ?_
  refine congrArg _ (funext fun a => Fin.ext ?_)
  match a with
  | ⟨0, _⟩ => show win0_1.index t (0 : Fin 4) * 1 + 1 * 0 = b.val; omega
  | ⟨1, _⟩ => show win0_1.index t (1 : Fin 4) * 1 + 1 * 0 = h.val; omega
  | ⟨2, _⟩ => show win0_1.index t (2 : Fin 4) * 2048 + 1 * k.val = k.val; omega
  | ⟨3, _⟩ => show win0_1.index t (3 : Fin 4) * 64 + 1 * d.val = d.val; omega

/-- The value block's entry (k, d) is the value argument at row k of (b, h). -/
theorem value_blk (e : win0_2.index t = ![b.val, h.val, 0, 0]) (k : Fin 2048) (d : Fin 64) :
    iblk m c 2 t (ix4 (0 : Fin 1) (0 : Fin 1) k d) = m ((c : Thread nD τ).loc main_arg2) (ix4 b h k d) := by
  have e0 : win0_2.index t (0 : Fin 4) = b.val := congrFun e 0
  have e1 : win0_2.index t (1 : Fin 4) = h.val := congrFun e 1
  have e2 : win0_2.index t (2 : Fin 4) = 0 := congrFun e 2
  have e3 : win0_2.index t (3 : Fin 4) = 0 := congrFun e 3
  show V m c main_v1 (((cfg0.win 2).blk t).view.emb (ix4 (0 : Fin 1) (0 : Fin 1) k d)) = _
  refine (congrFun (V_value m c) _).trans ?_
  refine congrArg _ (funext fun a => Fin.ext ?_)
  match a with
  | ⟨0, _⟩ => show win0_2.index t (0 : Fin 4) * 1 + 1 * 0 = b.val; omega
  | ⟨1, _⟩ => show win0_2.index t (1 : Fin 4) * 1 + 1 * 0 = h.val; omega
  | ⟨2, _⟩ => show win0_2.index t (2 : Fin 4) * 2048 + 1 * k.val = k.val; omega
  | ⟨3, _⟩ => show win0_2.index t (3 : Fin 4) * 64 + 1 * d.val = d.val; omega

/-- The frequency block's entry (r, k) is the frequency argument at row qi·512 + r of (b, 0). -/
theorem freq_blk (e : win0_3.index t = ![b.val, 0, qi.val, 0]) (r : Fin 512) (k : Fin 2048) (hrow : qi.val * 512 + r.val < 2048) :
    iblk m c 3 t (ix4 (0 : Fin 1) (0 : Fin 1) r k) = m ((c : Thread nD τ).loc main_arg3) (ix4 b (0 : Fin 1) ⟨qi.val * 512 + r.val, hrow⟩ k) := by
  have e0 : win0_3.index t (0 : Fin 4) = b.val := congrFun e 0
  have e1 : win0_3.index t (1 : Fin 4) = 0 := congrFun e 1
  have e2 : win0_3.index t (2 : Fin 4) = qi.val := congrFun e 2
  have e3 : win0_3.index t (3 : Fin 4) = 0 := congrFun e 3
  show V m c main_arg3 (((cfg0.win 3).blk t).view.emb (ix4 (0 : Fin 1) (0 : Fin 1) r k)) = _
  rw [V_main_arg3]
  refine congrArg _ (funext fun a => Fin.ext ?_)
  match a with
  | ⟨0, _⟩ => show win0_3.index t (0 : Fin 4) * 1 + 1 * 0 = b.val; omega
  | ⟨1, _⟩ => show win0_3.index t (1 : Fin 4) * 1 + 1 * 0 = 0; omega
  | ⟨2, _⟩ => show win0_3.index t (2 : Fin 4) * 512 + 1 * r.val = qi.val * 512 + r.val; omega
  | ⟨3, _⟩ => show win0_3.index t (3 : Fin 4) * 2048 + 1 * k.val = k.val; omega

/-- The mask block's entry (r, k) is the mask argument at row qi·512 + r of (b, 0). -/
theorem mask_blk (e : win0_4.index t = ![b.val, 0, qi.val, 0]) (r : Fin 512) (k : Fin 2048) (hrow : qi.val * 512 + r.val < 2048) :
    iblk m c 4 t (ix4 (0 : Fin 1) (0 : Fin 1) r k) = m ((c : Thread nD τ).loc main_arg4) (ix4 b (0 : Fin 1) ⟨qi.val * 512 + r.val, hrow⟩ k) := by
  have e0 : win0_4.index t (0 : Fin 4) = b.val := congrFun e 0
  have e1 : win0_4.index t (1 : Fin 4) = 0 := congrFun e 1
  have e2 : win0_4.index t (2 : Fin 4) = qi.val := congrFun e 2
  have e3 : win0_4.index t (3 : Fin 4) = 0 := congrFun e 3
  show V m c main_arg4 (((cfg0.win 4).blk t).view.emb (ix4 (0 : Fin 1) (0 : Fin 1) r k)) = _
  rw [V_main_arg4]
  refine congrArg _ (funext fun a => Fin.ext ?_)
  match a with
  | ⟨0, _⟩ => show win0_4.index t (0 : Fin 4) * 1 + 1 * 0 = b.val; omega
  | ⟨1, _⟩ => show win0_4.index t (1 : Fin 4) * 1 + 1 * 0 = 0; omega
  | ⟨2, _⟩ => show win0_4.index t (2 : Fin 4) * 512 + 1 * r.val = qi.val * 512 + r.val; omega
  | ⟨3, _⟩ => show win0_4.index t (3 : Fin 4) * 2048 + 1 * k.val = k.val; omega

/-- Entry (u, u', r, j) of the weights' block lies at row qi·512 + r, column j of (b, h). -/
theorem weights_emb (e : win0_6.index t = ![b.val, h.val, qi.val, 0]) (u u' : Fin 1) (r : Fin 512) (j : Fin 2048) (hrow : qi.val * 512 + r.val < 2048) :
    ((cfg0.win 6).blk t).view.emb (ix4 u u' r j) = ix4 b h ⟨qi.val * 512 + r.val, hrow⟩ j := by
  have e0 : win0_6.index t (0 : Fin 4) = b.val := congrFun e 0
  have e1 : win0_6.index t (1 : Fin 4) = h.val := congrFun e 1
  have e2 : win0_6.index t (2 : Fin 4) = qi.val := congrFun e 2
  have e3 : win0_6.index t (3 : Fin 4) = 0 := congrFun e 3
  have hu : u.val = 0 := by omega
  have hu' : u'.val = 0 := by omega
  refine funext fun a => Fin.ext ?_
  match a with
  | ⟨0, _⟩ => show win0_6.index t (0 : Fin 4) * 1 + 1 * u.val = b.val; omega
  | ⟨1, _⟩ => show win0_6.index t (1 : Fin 4) * 1 + 1 * u'.val = h.val; omega
  | ⟨2, _⟩ => show win0_6.index t (2 : Fin 4) * 512 + 1 * r.val = qi.val * 512 + r.val; omega
  | ⟨3, _⟩ => show win0_6.index t (3 : Fin 4) * 2048 + 1 * j.val = j.val; omega

/-- Entry (u, u', r, d) of the output's block lies at row qi·512 + r, column d of (b, h). -/
theorem output_emb (e : win0_5.index t = ![b.val, h.val, qi.val, 0]) (u u' : Fin 1) (r : Fin 512) (d : Fin 64) (hrow : qi.val * 512 + r.val < 2048) :
    ((cfg0.win 5).blk t).view.emb (ix4 u u' r d) = ix4 b h ⟨qi.val * 512 + r.val, hrow⟩ d := by
  have e0 : win0_5.index t (0 : Fin 4) = b.val := congrFun e 0
  have e1 : win0_5.index t (1 : Fin 4) = h.val := congrFun e 1
  have e2 : win0_5.index t (2 : Fin 4) = qi.val := congrFun e 2
  have e3 : win0_5.index t (3 : Fin 4) = 0 := congrFun e 3
  have hu : u.val = 0 := by omega
  have hu' : u'.val = 0 := by omega
  refine funext fun a => Fin.ext ?_
  match a with
  | ⟨0, _⟩ => show win0_5.index t (0 : Fin 4) * 1 + 1 * u.val = b.val; omega
  | ⟨1, _⟩ => show win0_5.index t (1 : Fin 4) * 1 + 1 * u'.val = h.val; omega
  | ⟨2, _⟩ => show win0_5.index t (2 : Fin 4) * 512 + 1 * r.val = qi.val * 512 + r.val; omega
  | ⟨3, _⟩ => show win0_5.index t (3 : Fin 4) * 64 + 1 * d.val = d.val; omega

end Point

/-! ## What the body leaves, entry by entry -/

/-- The weights' staging block after the body, at (u, u', r, j): the body's weights at (r, j). -/
theorem out6_apply (x0 : Vec Ideal S1x1x512x64 .f32) (x1 x2 : Vec Ideal S1x1x2048x64 .bf16) (x3 : Vec Ideal S1x1x512x2048 .f32) (x4 : Vec Ideal S1x1x512x2048 .i32)
    (u u' : Fin 1) (r : Fin 512) (j : Fin 2048) :
    out0_6 x0 x1 x2 x3 x4 (ix4 u u' r j) = k0_pay3 (F := Ideal) x0 x1 x3 x4 (ix2 r j) := by
  unfold out0_6
  rw [View.canon_unit_zero hz]
  simp only [View.ld_unit_zero (S := S1x1x512x64) hz, View.ld_unit_zero (S := S1x1x2048x64) hz, View.ld_unit_zero (S := S1x1x512x2048) hz]
  unfold k0_pay1
  exact shapeCast_ab_11ab_apply _ _ u u' r j

/-- The output's staging block after the body, at (u, u', r, d): the weights of row r against column d of the value block. -/
theorem out5_apply (x0 : Vec Ideal S1x1x512x64 .f32) (x1 x2 : Vec Ideal S1x1x2048x64 .bf16) (x3 : Vec Ideal S1x1x512x2048 .f32) (x4 : Vec Ideal S1x1x512x2048 .i32)
    (u u' : Fin 1) (r : Fin 512) (d : Fin 64) :
    out0_5 x0 x1 x2 x3 x4 (ix4 u u' r d) = ∑ j : Fin 2048, k0_pay3 (F := Ideal) x0 x1 x3 x4 (ix2 r j) * x2 (ix4 (0 : Fin 1) (0 : Fin 1) j d) := by
  unfold out0_5
  rw [View.canon_unit_zero hz]
  simp only [View.ld_unit_zero (S := S1x1x512x64) hz, View.ld_unit_zero (S := S1x1x2048x64) hz, View.ld_unit_zero (S := S1x1x512x2048) hz]
  exact pay2_apply _ _ u u' r d

/-- At any point the body's weights at (r, j) are the specification's at row qi·512 + r of (b, h). -/
theorem weights_point (c : Dev nD) (t : Fin cfg0.N) (b : Fin 2) (h : Fin 12) (qi : Fin 4)
    (e0 : win0_0.index t = ![b.val, h.val, qi.val, 0]) (e1 : win0_1.index t = ![b.val, h.val, 0, 0])
    (e3 : win0_3.index t = ![b.val, 0, qi.val, 0]) (e4 : win0_4.index t = ![b.val, 0, qi.val, 0])
    (r : Fin 512) (j : Fin 2048) (hrow : qi.val * 512 + r.val < 2048) :
    k0_pay3 (F := Ideal) (iblk m c 0 t) (iblk m c 1 t) (iblk m c 3 t) (iblk m c 4 t) (ix2 r j) = Gw m c (ix4 b h ⟨qi.val * 512 + r.val, hrow⟩ j) := by
  refine (pay3_apply (iblk m c 0 t) (iblk m c 1 t) (iblk m c 3 t) (iblk m c 4 t) r j).trans ?_
  show _ = softRow (scoreIn (m ((c : Thread nD τ).loc main_arg0)) (m ((c : Thread nD τ).loc main_arg1)) (m ((c : Thread nD τ).loc main_arg3)) (m ((c : Thread nD τ).loc main_arg4)) b h ⟨qi.val * 512 + r.val, hrow⟩) j
  refine congrArg (fun s => softRow s j) (funext fun k => ?_)
  unfold scoreIn
  refine congrArg₂ masked (mask_blk m c t b qi e4 r k hrow) ?_
  refine congrArg₂ (· + ·) (congrArg (· * _) (Finset.sum_congr rfl fun d _ => ?_)) (congrArg Ideal.log (freq_blk m c t b qi e3 r k hrow))
  exact congrArg₂ (· * ·) (congrArg (· * _) (query_blk m c t b h qi e0 r d hrow)) (key_blk m c t b h e1 k d)

/-! ## What each point writes back -/

theorem point6 (c : Dev nD) (t : Fin cfg0.N) (y : S1x1x512x2048.Idx) :
    out0_6 (iblk m c 0 t) (iblk m c 1 t) (iblk m c 2 t) (iblk m c 3 t) (iblk m c 4 t) y = Gw m c (((cfg0.win 6).blk t).view.emb y) := by
  obtain ⟨u, u', r, j, rfl⟩ : ∃ (u u' : Fin 1) (r : Fin 512) (j : Fin 2048), y = ix4 u u' r j := ⟨y 0, y 1, y 2, y 3, eq_ix4 y⟩
  obtain ⟨b, h, qi, e0, e1, e2, e3, e4, e5, e6⟩ := idx_facts t
  have hrow : qi.val * 512 + r.val < 2048 := by have := qi.isLt; have := r.isLt; omega
  rw [weights_emb t b h qi e6 u u' r j hrow]
  refine (out6_apply (iblk m c 0 t) (iblk m c 1 t) (iblk m c 2 t) (iblk m c 3 t) (iblk m c 4 t) u u' r j).trans ?_
  exact weights_point m c t b h qi e0 e1 e3 e4 r j hrow

theorem point5 (c : Dev nD) (t : Fin cfg0.N) (y : S1x1x512x64.Idx) :
    out0_5 (iblk m c 0 t) (iblk m c 1 t) (iblk m c 2 t) (iblk m c 3 t) (iblk m c 4 t) y = Go m c (((cfg0.win 5).blk t).view.emb y) := by
  obtain ⟨u, u', r, d, rfl⟩ : ∃ (u u' : Fin 1) (r : Fin 512) (d : Fin 64), y = ix4 u u' r d := ⟨y 0, y 1, y 2, y 3, eq_ix4 y⟩
  obtain ⟨b, h, qi, e0, e1, e2, e3, e4, e5, e6⟩ := idx_facts t
  have hrow : qi.val * 512 + r.val < 2048 := by have := qi.isLt; have := r.isLt; omega
  rw [output_emb t b h qi e5 u u' r d hrow]
  refine (out5_apply (iblk m c 0 t) (iblk m c 1 t) (iblk m c 2 t) (iblk m c 3 t) (iblk m c 4 t) u u' r d).trans ?_
  show _ = ∑ j : Fin 2048, Gw m c (ix4 b h ⟨qi.val * 512 + r.val, hrow⟩ j) * m ((c : Thread nD τ).loc main_arg2) (ix4 b h j d)
  exact Finset.sum_congr rfl fun j _ => congrArg₂ (· * ·) (weights_point m c t b h qi e0 e1 e3 e4 r j hrow) (value_blk m c t b h e2 j d)

/-- WHAT POINT `t` WRITES BACK to the weights array is block `t` of the specification's weights. -/
theorem flushed6_eq (c : Dev nD) (t : Fin cfg0.N) :
    (dats m 0 c).flushed 6 t = ((cfg0.win 6).blk t).view.read (Elt Ideal) (Gw m c) := by
  rw [Cert.KernelIdeal.Value.flushed6]
  funext y
  exact point6 m c t y

/-- WHAT POINT `t` WRITES BACK to the output array is block `t` of the specification's output. -/
theorem flushed5_eq (c : Dev nD) (t : Fin cfg0.N) :
    (dats m 0 c).flushed 5 t = ((cfg0.win 5).blk t).view.read (Elt Ideal) (Go m c) := by
  rw [Cert.KernelIdeal.Value.flushed5]
  funext y
  exact point5 m c t y

/-! ## The blocks tile the arrays -/

theorem mem_blk6 (t : Fin cfg0.N) (i : S2x12x2048x2048.Idx) :
    i ∈ ((cfg0.win 6).blk t).view.set ↔ ∀ a : Fin 4, win0_6.index t a * S1x1x512x2048.size a ≤ (i a).val ∧ (i a).val < win0_6.index t a * S1x1x512x2048.size a + S1x1x512x2048.size a := by
  show i ∈ ((View.whole main_v2_1).slice (win0_6.rect t)).set ↔ _
  rw [View.set_slice_whole, Rect.mem_set_unit]
  exact Iff.rfl

theorem mem_blk5 (t : Fin cfg0.N) (i : S2x12x2048x64.Idx) :
    i ∈ ((cfg0.win 5).blk t).view.set ↔ ∀ a : Fin 4, win0_5.index t a * S1x1x512x64.size a ≤ (i a).val ∧ (i a).val < win0_5.index t a * S1x1x512x64.size a + S1x1x512x64.size a := by
  show i ∈ ((View.whole main_v2_0).slice (win0_5.rect t)).set ↔ _
  rw [View.set_slice_whole, Rect.mem_set_unit]
  exact Iff.rfl

/-- Row i of (b, h) is in the block of the point with query tile i / 512. -/
theorem cover6 (i : S2x12x2048x2048.Idx) : ∃ t : Fin cfg0.N, (cfg0.win 6).flush t = true ∧ i ∈ ((cfg0.win 6).blk t).view.set := by
  have h0 : (i 0).val < 2 := (i 0).isLt
  have h1 : (i 1).val < 12 := (i 1).isLt
  have h2 : (i 2).val < 2048 := (i 2).isLt
  have h3 : (i 3).val < 2048 := (i 3).isLt
  obtain ⟨t, -, ht⟩ := idx_onto ⟨(i 0).val, h0⟩ ⟨(i 1).val, h1⟩ ⟨(i 2).val / 512, by omega⟩
  have q0 : win0_6.index t (0 : Fin 4) = (i 0).val := congrFun ht 0
  have q1 : win0_6.index t (1 : Fin 4) = (i 1).val := congrFun ht 1
  have q2 : win0_6.index t (2 : Fin 4) = (i 2).val / 512 := congrFun ht 2
  have q3 : win0_6.index t (3 : Fin 4) = 0 := congrFun ht 3
  refine ⟨t, flush0_6 t, ?_⟩
  rw [mem_blk6]
  intro a
  match a with
  | ⟨0, _⟩ => show win0_6.index t (0 : Fin 4) * 1 ≤ (i 0).val ∧ (i 0).val < win0_6.index t (0 : Fin 4) * 1 + 1; omega
  | ⟨1, _⟩ => show win0_6.index t (1 : Fin 4) * 1 ≤ (i 1).val ∧ (i 1).val < win0_6.index t (1 : Fin 4) * 1 + 1; omega
  | ⟨2, _⟩ => show win0_6.index t (2 : Fin 4) * 512 ≤ (i 2).val ∧ (i 2).val < win0_6.index t (2 : Fin 4) * 512 + 512; omega
  | ⟨3, _⟩ => show win0_6.index t (3 : Fin 4) * 2048 ≤ (i 3).val ∧ (i 3).val < win0_6.index t (3 : Fin 4) * 2048 + 2048; omega

theorem cover5 (i : S2x12x2048x64.Idx) : ∃ t : Fin cfg0.N, (cfg0.win 5).flush t = true ∧ i ∈ ((cfg0.win 5).blk t).view.set := by
  have h0 : (i 0).val < 2 := (i 0).isLt
  have h1 : (i 1).val < 12 := (i 1).isLt
  have h2 : (i 2).val < 2048 := (i 2).isLt
  have h3 : (i 3).val < 64 := (i 3).isLt
  obtain ⟨t, ht, -⟩ := idx_onto ⟨(i 0).val, h0⟩ ⟨(i 1).val, h1⟩ ⟨(i 2).val / 512, by omega⟩
  have q0 : win0_5.index t (0 : Fin 4) = (i 0).val := congrFun ht 0
  have q1 : win0_5.index t (1 : Fin 4) = (i 1).val := congrFun ht 1
  have q2 : win0_5.index t (2 : Fin 4) = (i 2).val / 512 := congrFun ht 2
  have q3 : win0_5.index t (3 : Fin 4) = 0 := congrFun ht 3
  refine ⟨t, flush0_5 t, ?_⟩
  rw [mem_blk5]
  intro a
  match a with
  | ⟨0, _⟩ => show win0_5.index t (0 : Fin 4) * 1 ≤ (i 0).val ∧ (i 0).val < win0_5.index t (0 : Fin 4) * 1 + 1; omega
  | ⟨1, _⟩ => show win0_5.index t (1 : Fin 4) * 1 ≤ (i 1).val ∧ (i 1).val < win0_5.index t (1 : Fin 4) * 1 + 1; omega
  | ⟨2, _⟩ => show win0_5.index t (2 : Fin 4) * 512 ≤ (i 2).val ∧ (i 2).val < win0_5.index t (2 : Fin 4) * 512 + 512; omega
  | ⟨3, _⟩ => show win0_5.index t (3 : Fin 4) * 64 ≤ (i 3).val ∧ (i 3).val < win0_5.index t (3 : Fin 4) * 64 + 64; omega

/-! ## The arrays after the run -/

theorem final6 (c : Dev nD) : (dats m 0 c).arrAt 6 cfg0.N = Gw m c :=
  (dats m 0 c).arrAt_eq_of_cover 6 (Gw m c) (fun t _ => flushed6_eq m c t) cover6

theorem final5 (c : Dev nD) : (dats m 0 c).arrAt 5 cfg0.N = Go m c :=
  (dats m 0 c).arrAt_eq_of_cover 5 (Go m c) (fun t _ => flushed5_eq m c t) cover5

/-- The kernel's run: every weakly fair execution terminates with the output array at the specification's output and the
    weights array at its weights, of the argument arrays as launched, and those unchanged. -/
theorem run : θ_run defs (onTc (τ := τ) (main (F := Ideal))) ⟨m, fun _ => 0, ρ⟩ fun r => ∀ c : Dev nD,
      r.2.mem ((c : Thread nD τ).loc main_v2_0) = Go m c
      ∧ r.2.mem ((c : Thread nD τ).loc main_v2_1) = Gw m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final5 m c), (h c).2.1.trans (final6 m c), (h c).2.2⟩)
    (Cert.KernelIdeal.Value.run_blocks m ρ)

end Cert.KernelIdeal.Blocks

end
-- ==== Proof.lean ====
/-
  Masked, biased softmax attention: the tiled kernel against the plain reference, over the extended reals.

  Both programs compute, for batch entry b, head h and query position i,
    scores   s k = (Σ_d query[b,h,i,d] · key[b,h,k,d]) / 8 + log freq[b,0,i,k],   −10⁹ where mask[b,0,i,k] = 0,
    weights  exp (s j − max_k s k) / Σ_k exp (s k − max_k s k),
    output   Σ_j weights[j] · value[b,h,j,d],
  and return the output and the weights.  The kernel works on tiles of 512 query rows, one head at a time, on key and value
  arrays first narrowed to a shorter float format (the identity on extended reals), and multiplies each query entry by 1/8
  before the products are summed; the reference multiplies the summed products by 1/8.  For real query and key entries the
  two are the same number — distributivity over a finite sum of reals — and the precondition says every float entry is real.
  Everything after the scores is the same function on both sides: the row maximum as a fold from −∞ (the reference's extra
  maximum against −∞ changes nothing), the exponentials, their sum, the quotient, the contraction with the value rows.

  The frames are the programs' own runs; no operation of the kernel was rewritten for the extended reals, so there is nothing
  to preserve; the algebraic claim sets the kernel's run (its blocks tile the two result arrays) beside the reference's run,
  both at the specification's output and weights of the argument arrays.
-/
import proofs.«101672_j36876589203488_2_alg».proof.Defs
import proofs.«101672_j36876589203488_2_alg».proof.Proof.Gen.Kernel
import proofs.«101672_j36876589203488_2_alg».proof.Proof.Gen.Kernel.Skeleton
import proofs.«101672_j36876589203488_2_alg».proof.Proof.Gen.Kernel.Launch
import proofs.«101672_j36876589203488_2_alg».proof.Proof.Gen.Kernel.Points
import proofs.«101672_j36876589203488_2_alg».proof.Proof.Gen.Kernel.Frame
import proofs.«101672_j36876589203488_2_alg».proof.Proof.Gen.KernelIdeal
import proofs.«101672_j36876589203488_2_alg».proof.Proof.Gen.KernelIdeal.Skeleton
import proofs.«101672_j36876589203488_2_alg».proof.Proof.Gen.KernelIdeal.Launch
import proofs.«101672_j36876589203488_2_alg».proof.Proof.Gen.KernelIdeal.Points
import proofs.«101672_j36876589203488_2_alg».proof.Proof.Gen.KernelIdeal.Frame
import proofs.«101672_j36876589203488_2_alg».proof.Proof.Gen.ReferenceIdeal
import proofs.«101672_j36876589203488_2_alg».proof.Proof.Gen.KernelIdeal.Value
import proofs.«101672_j36876589203488_2_alg».proof.Proof.Gen.ReferenceIdeal.Run
import proofs.«101672_j36876589203488_2_alg».proof.Proof.Gen.ReferenceIdeal.Read
import proofs.«101672_j36876589203488_2_alg».proof.Proof.Gen.Pre_finite_inputs
import proofs.«101672_j36876589203488_2_alg».proof.Proof.Finite
import proofs.«101672_j36876589203488_2_alg».proof.Proof.RefValue
import proofs.«101672_j36876589203488_2_alg».proof.Proof.Blocks
import Idealize.ShloMosaic.Adequacy
import Idealize.ShloMosaic.Init

noncomputable section

namespace Cert.Proof

open Idealize.ShloMosaic Idealize.SL.Sem Cert.Kernel

/-- The kernel as printed runs and leaves its arguments as they were. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- The reference's frame is its run with the two results dropped. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- From memories that agree on the arguments, the kernel's run ends with the two result arrays at the specification's
    output and weights of the arguments, and so does the reference's: its results are those functions of ITS arguments, which
    are the kernel's, whose query and key entries the precondition makes real. -/
theorem algebraic : Cert.algebraic_KernelIdeal_ReferenceIdeal := by
  intro m ρ m' ρ' hpre hagree
  refine ⟨fun c => Cert.KernelIdeal.Blocks.Go m c, fun c => Cert.KernelIdeal.Blocks.Gw m c, Cert.KernelIdeal.Blocks.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · obtain ⟨hQ, hK, -, -⟩ := Cert.Attn.Finite.all_real _ _ _ _ _ (hpre c)
    rw [Cert.ReferenceIdeal.Read.val_main_v20_eq, (hagree c).1, (hagree c).2.1, (hagree c).2.2.1, (hagree c).2.2.2.1, (hagree c).2.2.2.2]
    exact Cert.ReferenceIdeal.RefValue.ref_output _ _ _ _ _ hQ hK
  · obtain ⟨hQ, hK, -, -⟩ := Cert.Attn.Finite.all_real _ _ _ _ _ (hpre c)
    rw [Cert.ReferenceIdeal.Read.val_main_v19_eq, (hagree c).1, (hagree c).2.1, (hagree c).2.2.2.1, (hagree c).2.2.2.2]
    exact Cert.ReferenceIdeal.RefValue.ref_weights _ _ _ _ hQ hK

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
